-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S250000x1 : Shape := ⟨2, ![250000, 1]⟩
abbrev S2x4000000 : Shape := ⟨2, ![2, 4000000]⟩
abbrev S250000 : Shape := ⟨1, ![250000]⟩
abbrev S1x64 : Shape := ⟨2, ![1, 64]⟩
abbrev S64 : Shape := ⟨1, ![64]⟩
abbrev S64x64 : Shape := ⟨2, ![64, 64]⟩
abbrev S_ : Shape := ⟨0, ![]⟩

class Facts : Prop where
  bcast_S_S250000x1 : S_.BroadcastsInDim S250000x1 (![] : Fin 0 → Fin S250000x1.rank)
  reducesTo_S250000x1_S_d0_1 : S250000x1.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64 .f32) (main_arg7 : FVec F S64x64 .f32) (main_arg8 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S250000x1 .f32) (main_arg1 : IVec S2x4000000 32) (main_arg2 : IVec S250000 32) (main_arg3 : FVec F S1x64 .f32) (main_arg4 : FVec F S64 .f32) (main_arg5 : FVec F S64x64 .f32) (main_arg6 : FVec F S64 .f32) (main_arg7 : FVec F S64x64 .f32) (main_arg8 : FVec F S64 .f32) : IVec S_ 1 :=
  let main_v0 : FVec F S250000x1 .f32 := Host.absf main_arg0
  let main_cst : FVec F S_ .f32 := constant S_ .f32 0x7F800000#32
  let main_v1 : FVec F S250000x1 .f32 := broadcastInDim S250000x1 ![] bcast_S_S250000x1 main_cst
  let main_v2 : IVec S250000x1 1 := cmpf .olt main_v0 main_v1
  let main_c : IVec S_ 1 := constantI S_ 1 1#1
  let main_v3 : IVec S_ 1 := (fun x v => Host.reduce IntOp.andi x v reducesTo_S250000x1_S_d0_1 h_S_) main_v2 main_c
  let main_v4 : FVec F S1x64 .f32 := Host.absf main_arg3
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S250000x1 : Shape := ⟨2, ![250000, 1]⟩
abbrev S2x4000000 : Shape := ⟨2, ![2, 4000000]⟩
abbrev S250000 : Shape := ⟨1, ![250000]⟩
abbrev S1x64 : Shape := ⟨2, ![1, 64]⟩
abbrev S64 : Shape := ⟨1, ![64]⟩
abbrev S64x64 : Shape := ⟨2, ![64, 64]⟩
abbrev S1x4000000 : Shape := ⟨2, ![1, 4000000]⟩
abbrev S4000000 : Shape := ⟨1, ![4000000]⟩
abbrev S_ : Shape := ⟨0, ![]⟩
abbrev S4000000x1 : Shape := ⟨2, ![4000000, 1]⟩
abbrev S250000x64 : Shape := ⟨2, ![250000, 64]⟩
abbrev S5000x1 : Shape := ⟨2, ![5000, 1]⟩
abbrev S5000x64 : Shape := ⟨2, ![5000, 64]⟩
abbrev S4000000x64 : Shape := ⟨2, ![4000000, 64]⟩
abbrev S512x64 : Shape := ⟨2, ![512, 64]⟩
abbrev S512 : Shape := ⟨1, ![512]⟩
abbrev S512x1 : Shape := ⟨2, ![512, 1]⟩

abbrev nBuf : Space → Nat
  | .hbm => 101
  | .vmem => 38
  | .smem => 0
  | _ => 0

abbrev bufTy : (tb : Table) → Fin (tcTables nBuf tb) → BufTy
  | .hbm, ⟨0, _⟩ => ⟨S250000x1, .f32⟩
  | .hbm, ⟨1, _⟩ => ⟨S2x4000000, .i32⟩
  | .hbm, ⟨2, _⟩ => ⟨S250000, .i32⟩
  | .hbm, ⟨3, _⟩ => ⟨S1x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x4000000, .i32⟩
  | .hbm, ⟨10, _⟩ => ⟨S4000000, .i32⟩
  | .hbm, ⟨11, _⟩ => ⟨S1x4000000, .i32⟩
  | .hbm, ⟨12, _⟩ => ⟨S4000000, .i32⟩
  | .hbm, ⟨13, _⟩ => ⟨S_, .f32⟩
  | .hbm, ⟨14, _⟩ => ⟨S4000000, .f32⟩
  | .hbm, ⟨15, _⟩ => ⟨S_, .f32⟩
  | .hbm, ⟨16, _⟩ => ⟨S250000, .f32⟩
  | .hbm, ⟨17, _⟩ => ⟨S4000000x1, .i32⟩
  | .hbm, ⟨18, _⟩ => ⟨S250000, .f32⟩
  | .hbm, ⟨19, _⟩ => ⟨S_, .f32⟩
  | .hbm, ⟨20, _⟩ => ⟨S250000, .f32⟩
  | .hbm, ⟨21, _⟩ => ⟨S250000, .f32⟩
  | .hbm, ⟨22, _⟩ => ⟨S250000, .f32⟩
  | .hbm, ⟨23, _⟩ => ⟨S_, .i32⟩
  | .hbm, ⟨24, _⟩ => ⟨S4000000, .i32⟩
  | .hbm, ⟨25, _⟩ => ⟨S4000000, .i1⟩
  | .hbm, ⟨26, _⟩ => ⟨S_, .i32⟩
  | .hbm, ⟨27, _⟩ => ⟨S4000000, .i32⟩
  | .hbm, ⟨28, _⟩ => ⟨S4000000, .i32⟩
  | .hbm, ⟨29, _⟩ => ⟨S4000000, .i32⟩
  | .hbm, ⟨30, _⟩ => ⟨S4000000x1, .i32⟩
  | .hbm, ⟨31, _⟩ => ⟨S4000000, .f32⟩
  | .hbm, ⟨32, _⟩ => ⟨S_, .i32⟩
  | .hbm, ⟨33, _⟩ => ⟨S4000000, .i32⟩
  | .hbm, ⟨34, _⟩ => ⟨S4000000, .i1⟩
  | .hbm, ⟨35, _⟩ => ⟨S_, .i32⟩
  | .hbm, ⟨36, _⟩ => ⟨S4000000, .i32⟩
  | .hbm, ⟨37, _⟩ => ⟨S4000000, .i32⟩
  | .hbm, ⟨38, _⟩ => ⟨S4000000, .i32⟩
  | .hbm, ⟨39, _⟩ => ⟨S4000000x1, .i32⟩
  | .hbm, ⟨40, _⟩ => ⟨S4000000, .f32⟩
  | .hbm, ⟨41, _⟩ => ⟨S4000000, .f32⟩
  | .hbm, ⟨42, _⟩ => ⟨S4000000x1, .f32⟩
  | .hbm, ⟨43, _⟩ => ⟨S250000, .f32⟩
  | .hbm, ⟨44, _⟩ => ⟨S250000x1, .f32⟩
  | .hbm, ⟨45, _⟩ => ⟨S1x64, .f32⟩
  | .hbm, ⟨46, _⟩ => ⟨S1x64, .f32⟩
  | .hbm, ⟨47, _⟩ => ⟨S1x64, .f32⟩
  | .hbm, ⟨48, _⟩ => ⟨S250000x64, .f32⟩
  | .hbm, ⟨49, _⟩ => ⟨S250000x64, .f32⟩
  | .hbm, ⟨50, _⟩ => ⟨S250000x64, .f32⟩
  | .hbm, ⟨51, _⟩ => ⟨S_, .i32⟩
  | .hbm, ⟨52, _⟩ => ⟨S4000000, .i32⟩
  | .hbm, ⟨53, _⟩ => ⟨S4000000, .i1⟩
  | .hbm, ⟨54, _⟩ => ⟨S_, .i32⟩
  | .hbm, ⟨55, _⟩ => ⟨S4000000, .i32⟩
  | .hbm, ⟨56, _⟩ => ⟨S4000000, .i32⟩
  | .hbm, ⟨57, _⟩ => ⟨S4000000, .i32⟩
  | .hbm, ⟨58, _⟩ => ⟨S4000000x1, .i32⟩
  | .hbm, ⟨59, _⟩ => ⟨S4000000x64, .f32⟩
  | .hbm, ⟨60, _⟩ => ⟨S4000000x64, .f32⟩
  | .hbm, ⟨61, _⟩ => ⟨S4000000x64, .f32⟩
  | .hbm, ⟨62, _⟩ => ⟨S_, .f32⟩
  | .hbm, ⟨63, _⟩ => ⟨S250000x64, .f32⟩
  | .hbm, ⟨64, _⟩ => ⟨S4000000x1, .i32⟩
  | .hbm, ⟨65, _⟩ => ⟨S250000x64, .f32⟩
  | .hbm, ⟨66, _⟩ => ⟨S250000x64, .f32⟩
  | .hbm, ⟨67, _⟩ => ⟨S250000x64, .f32⟩
  | .hbm, ⟨68, _⟩ => ⟨S250000x64, .f32⟩
  | .hbm, ⟨69, _⟩ => ⟨S_, .i32⟩
  | .hbm, ⟨70, _⟩ => ⟨S4000000, .i32⟩
  | .hbm, ⟨71, _⟩ => ⟨S4000000, .i1⟩
  | .hbm, ⟨72, _⟩ => ⟨S_, .i32⟩
  | .hbm, ⟨73, _⟩ => ⟨S4000000, .i32⟩
  | .hbm, ⟨74, _⟩ => ⟨S4000000, .i32⟩
  | .hbm, ⟨75, _⟩ => ⟨S4000000, .i32⟩
  | .hbm, ⟨76, _⟩ => ⟨S4000000x1, .i32⟩
  | .hbm, ⟨77, _⟩ => ⟨S4000000x64, .f32⟩
  | .hbm, ⟨78, _⟩ => ⟨S4000000x64, .f32⟩
  | .hbm, ⟨79, _⟩ => ⟨S4000000x64, .f32⟩
  | .hbm, ⟨80, _⟩ => ⟨S_, .f32⟩
  | .hbm, ⟨81, _⟩ => ⟨S250000x64, .f32⟩
  | .hbm, ⟨82, _⟩ => ⟨S4000000x1, .i32⟩
  | .hbm, ⟨83, _⟩ => ⟨S250000x64, .f32⟩
  | .hbm, ⟨84, _⟩ => ⟨S250000x64, .f32⟩
  | .hbm, ⟨85, _⟩ => ⟨S_, .f32⟩
  | .hbm, ⟨86, _⟩ => ⟨S512x64, .f32⟩
  | .hbm, ⟨87, _⟩ => ⟨S250000x1, .i32⟩
  | .hbm, ⟨88, _⟩ => ⟨S512x64, .f32⟩
  | .hbm, ⟨89, _⟩ => ⟨S_, .f32⟩
  | .hbm, ⟨90, _⟩ => ⟨S250000, .f32⟩
  | .hbm, ⟨91, _⟩ => ⟨S_, .f32⟩
  | .hbm, ⟨92, _⟩ => ⟨S512, .f32⟩
  | .hbm, ⟨93, _⟩ => ⟨S250000x1, .i32⟩
  | .hbm, ⟨94, _⟩ => ⟨S512, .f32⟩
  | .hbm, ⟨95, _⟩ => ⟨S_, .f32⟩
  | .hbm, ⟨96, _⟩ => ⟨S512, .f32⟩
  | .hbm, ⟨97, _⟩ => ⟨S512, .f32⟩
  | .hbm, ⟨98, _⟩ => ⟨S512x1, .f32⟩
  | .hbm, ⟨99, _⟩ => ⟨S512x64, .f32⟩
  | .hbm, ⟨100, _⟩ => ⟨S512x64, .f32⟩
  | .local _ .vmem, ⟨0, _⟩ => ⟨S5000x1, .f32⟩
  | .local _ .vmem, ⟨1, _⟩ => ⟨S5000x1, .f32⟩
  | .local _ .vmem, ⟨2, _⟩ => ⟨S1x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S5000x1, .f32⟩
  | .local _ .vmem, ⟨10, _⟩ => ⟨S5000x1, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S5000x1, .f32⟩
  | .local _ .vmem, ⟨26, _⟩ => ⟨S5000x1, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | _, _ => ⟨S250000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33_0 : Ref sig .tc := ⟨.hbm, 49, rfl⟩
abbrev main_v33_1 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47_0 : Ref sig .tc := ⟨.hbm, 67, rfl⟩
abbrev main_v47_1 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_12 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_14 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc3_stg4_0 : Ref sig .tc := ⟨.vmem, 29, rfl⟩
abbrev cc3_stg4_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc3_sem3_0 : DmaSem sig := 27
abbrev cc3_sem3_1 : DmaSem sig := 28
abbrev cc3_sem4_0 : DmaSem sig := 29
abbrev cc3_sem4_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem3_0 : DmaSem sig := 36
abbrev cc4_sem3_1 : DmaSem sig := 37

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S_S250000 : S_.BroadcastsInDim S250000 (![] : Fin 0 → Fin S250000.rank)
  bcast_S4000000_S4000000x1_0 : S4000000.BroadcastsInDim S4000000x1 (![0] : Fin 1 → Fin S4000000x1.rank)
  shapeCasts_S4000000_S4000000x1 : S4000000.ShapeCasts S4000000x1
  shapeCasts_S250000_S250000x1 : S250000.ShapeCasts S250000x1
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S5000x1_S5000x1 : S5000x1.ShapeCasts S5000x1
  broadcasts_S5000x1_S5000x64 : S5000x1.Broadcasts S5000x64
  bcast_S4000000x1_S4000000x64_0_1 : S4000000x1.BroadcastsInDim S4000000x64 (![0, 1] : Fin 2 → Fin S4000000x64.rank)
  bcast_S_S250000x64 : S_.BroadcastsInDim S250000x64 (![] : Fin 0 → Fin S250000x64.rank)
  bcast_S_S512x64 : S_.BroadcastsInDim S512x64 (![] : Fin 0 → Fin S512x64.rank)
  bcast_S250000_S250000x1_0 : S250000.BroadcastsInDim S250000x1 (![0] : Fin 1 → Fin S250000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  scatter_S250000_S4000000x1_S4000000_n_0_0_1_wf : ScatterDims.WF S250000 S4000000x1 S4000000 [] [0] [0] 1
  gather_S250000_S4000000x1_S4000000_n_0_n_n_0_1_1_wf : GatherDims.WF S250000 S4000000x1 S4000000 [] [0] [] [0] [] 1 ![1]
  dot_S5000x1_S1x64_S5000x64_1_0_0_1_n_n_wf : DotDims.WF S5000x1 S1x64 S5000x64 [1] [0] [0] [1] [] []
  dot_S5000x64_S64x64_S5000x64_1_0_0_1_n_n_wf : DotDims.WF S5000x64 S64x64 S5000x64 [1] [0] [0] [1] [] []
  gather_S250000x64_S4000000x1_S4000000x64_1_0_n_n_0_1_164_wf : GatherDims.WF S250000x64 S4000000x1 S4000000x64 [1] [0] [] [0] [] 1 ![1, 64]
  scatter_S250000x64_S4000000x1_S4000000x64_1_0_0_1_wf : ScatterDims.WF S250000x64 S4000000x1 S4000000x64 [1] [0] [0] 1
  scatter_S512x64_S250000x1_S250000x64_1_0_0_1_wf : ScatterDims.WF S512x64 S250000x1 S250000x64 [1] [0] [0] 1
  scatter_S512_S250000x1_S250000_n_0_0_1_wf : ScatterDims.WF S512 S250000x1 S250000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S250000x1.size a
  hwx0_0 : ∀ i : grid0.Coords, EltTy.bits .f32 = 32 ∨ (Rect.block (s := S250000x1) S5000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S250000x64.size a
  hwx0_3 : ∀ i : grid0.Coords, EltTy.bits .f32 = 32 ∨ (Rect.block (s := S250000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S250000x64.size a
  hwx1_0 : ∀ i : grid1.Coords, EltTy.bits .f32 = 32 ∨ (Rect.block (s := S250000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S250000x1.size a
  hwx1_2 : ∀ i : grid1.Coords, EltTy.bits .f32 = 32 ∨ (Rect.block (s := S250000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S250000x64.size a
  hwx1_3 : ∀ i : grid1.Coords, EltTy.bits .f32 = 32 ∨ (Rect.block (s := S250000x64) S5000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S250000x64.size a
  hwx1_4 : ∀ i : grid1.Coords, EltTy.bits .f32 = 32 ∨ (Rect.block (s := S250000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S250000x64.size a
  hwx2_0 : ∀ i : grid2.Coords, EltTy.bits .f32 = 32 ∨ (Rect.block (s := S250000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S250000x64.size a
  hwx2_1 : ∀ i : grid2.Coords, EltTy.bits .f32 = 32 ∨ (Rect.block (s := S250000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S250000x64.size a
  hwx2_3 : ∀ i : grid2.Coords, EltTy.bits .f32 = 32 ∨ (Rect.block (s := S250000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S250000x64.size a
  hwx3_0 : ∀ i : grid3.Coords, EltTy.bits .f32 = 32 ∨ (Rect.block (s := S250000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S250000x1.size a
  hwx3_2 : ∀ i : grid3.Coords, EltTy.bits .f32 = 32 ∨ (Rect.block (s := S250000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S250000x64.size a
  hwx3_3 : ∀ i : grid3.Coords, EltTy.bits .f32 = 32 ∨ (Rect.block (s := S250000x64) S5000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S250000x64.size a
  hwx3_4 : ∀ i : grid3.Coords, EltTy.bits .f32 = 32 ∨ (Rect.block (s := S250000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S250000x64.size a
  hwx4_0 : ∀ i : grid4.Coords, EltTy.bits .f32 = 32 ∨ (Rect.block (s := S250000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S250000x64.size a
  hwx4_1 : ∀ i : grid4.Coords, EltTy.bits .f32 = 32 ∨ (Rect.block (s := S250000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S250000x64.size a
  hwx4_3 : ∀ i : grid4.Coords, EltTy.bits .f32 = 32 ∨ (Rect.block (s := S250000x64) S5000x64.size (cc4_transform_3 i) (hinb4_3 i)).WholeWords (EltTy.packing .f32)

variable [Facts₀]

def scatter_S250000_S4000000x1_S4000000_n_0_0_1 : ScatterDims S250000 S4000000x1 S4000000 where
  updateWindowDims := []
  insertedWindowDims := [0]
  scatterDimsToOperandDims := [0]
  indexVectorDim := 1
  wf := scatter_S250000_S4000000x1_S4000000_n_0_0_1_wf
def gather_S250000_S4000000x1_S4000000_n_0_n_n_0_1_1 : GatherDims S250000 S4000000x1 S4000000 where
  offsetDims := []
  collapsedSliceDims := [0]
  operandBatchingDims := []
  startIndicesBatchingDims := []
  startIndexMap := [0]
  indexVectorDim := 1
  sliceSizes := ![1]
  wf := gather_S250000_S4000000x1_S4000000_n_0_n_n_0_1_1_wf
def dot_S5000x1_S1x64_S5000x64_1_0_0_1_n_n : DotDims S5000x1 S1x64 S5000x64 where
  lhsContracting := [1]
  rhsContracting := [0]
  lhsNonContracting := [0]
  rhsNonContracting := [1]
  lhsBatch := []
  rhsBatch := []
  wf := dot_S5000x1_S1x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S250000x64_S4000000x1_S4000000x64_1_0_n_n_0_1_164 : GatherDims S250000x64 S4000000x1 S4000000x64 where
  offsetDims := [1]
  collapsedSliceDims := [0]
  operandBatchingDims := []
  startIndicesBatchingDims := []
  startIndexMap := [0]
  indexVectorDim := 1
  sliceSizes := ![1, 64]
  wf := gather_S250000x64_S4000000x1_S4000000x64_1_0_n_n_0_1_164_wf
def scatter_S250000x64_S4000000x1_S4000000x64_1_0_0_1 : ScatterDims S250000x64 S4000000x1 S4000000x64 where
  updateWindowDims := [1]
  insertedWindowDims := [0]
  scatterDimsToOperandDims := [0]
  indexVectorDim := 1
  wf := scatter_S250000x64_S4000000x1_S4000000x64_1_0_0_1_wf
def scatter_S512x64_S250000x1_S250000x64_1_0_0_1 : ScatterDims S512x64 S250000x1 S250000x64 where
  updateWindowDims := [1]
  insertedWindowDims := [0]
  scatterDimsToOperandDims := [0]
  indexVectorDim := 1
  wf := scatter_S512x64_S250000x1_S250000x64_1_0_0_1_wf
def scatter_S512_S250000x1_S250000_n_0_0_1 : ScatterDims S512 S250000x1 S250000 where
  updateWindowDims := []
  insertedWindowDims := [0]
  scatterDimsToOperandDims := [0]
  indexVectorDim := 1
  wf := scatter_S512_S250000x1_S250000_n_0_0_1_wf

abbrev win0_0 : Pipeline.Window sig grid0 :=
  Pipeline.Window.ofSpec (Memref.whole main_arg0) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33_0) S5000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v33_1) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33_1) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v46) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v28) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v47_0) S5000x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v47_1) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v59) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v47_1) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v31) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v60) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S250000x1 : Shape := ⟨2, ![250000, 1]⟩
abbrev S2x4000000 : Shape := ⟨2, ![2, 4000000]⟩
abbrev S250000 : Shape := ⟨1, ![250000]⟩
abbrev S1x64 : Shape := ⟨2, ![1, 64]⟩
abbrev S64 : Shape := ⟨1, ![64]⟩
abbrev S64x64 : Shape := ⟨2, ![64, 64]⟩
abbrev S1x4000000 : Shape := ⟨2, ![1, 4000000]⟩
abbrev S4000000 : Shape := ⟨1, ![4000000]⟩
abbrev S250000x64 : Shape := ⟨2, ![250000, 64]⟩
abbrev S_ : Shape := ⟨0, ![]⟩
abbrev S4000000x1 : Shape := ⟨2, ![4000000, 1]⟩
abbrev S4000000x64 : Shape := ⟨2, ![4000000, 64]⟩
abbrev S512x64 : Shape := ⟨2, ![512, 64]⟩
abbrev S512 : Shape := ⟨1, ![512]⟩
abbrev S512x1 : Shape := ⟨2, ![512, 1]⟩

abbrev nBuf : Space → Nat
  | .hbm => 150
  | .vmem => 0
  | .smem => 0
  | _ => 0

abbrev hbmTy0_0 (i : Nat) : BufTy := match i % 128 with
  | 0 => ⟨S250000x1, .f32⟩
  | 1 => ⟨S2x4000000, .i32⟩
  | 2 => ⟨S250000, .i32⟩
  | 3 => ⟨S1x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S1x4000000, .i32⟩
  | 10 => ⟨S4000000, .i32⟩
  | 11 => ⟨S1x4000000, .i32⟩
  | 12 => ⟨S4000000, .i32⟩
  | 13 => ⟨S250000x64, .f32⟩
  | 14 => ⟨S1x64, .f32⟩
  | 15 => ⟨S250000x64, .f32⟩
  | 16 => ⟨S250000x64, .f32⟩
  | 17 => ⟨S_, .f32⟩
  | 18 => ⟨S250000x64, .f32⟩
  | 19 => ⟨S250000x64, .f32⟩
  | 20 => ⟨S250000x64, .f32⟩
  | 21 => ⟨S_, .f32⟩
  | 22 => ⟨S4000000, .f32⟩
  | 23 => ⟨S_, .f32⟩
  | 24 => ⟨S250000, .f32⟩
  | 25 => ⟨S4000000x1, .i32⟩
  | 26 => ⟨S250000, .f32⟩
  | 27 => ⟨S_, .f32⟩
  | 28 => ⟨S250000, .f32⟩
  | 29 => ⟨S250000, .f32⟩
  | 30 => ⟨S250000, .f32⟩
  | 31 => ⟨S_, .i32⟩
  | 32 => ⟨S4000000, .i32⟩
  | 33 => ⟨S4000000, .i1⟩
  | 34 => ⟨S_, .i32⟩
  | 35 => ⟨S4000000, .i32⟩
  | 36 => ⟨S4000000, .i32⟩
  | 37 => ⟨S4000000, .i32⟩
  | 38 => ⟨S4000000x1, .i32⟩
  | 39 => ⟨S4000000, .f32⟩
  | 40 => ⟨S_, .i32⟩
  | 41 => ⟨S4000000, .i32⟩
  | 42 => ⟨S4000000, .i1⟩
  | 43 => ⟨S_, .i32⟩
  | 44 => ⟨S4000000, .i32⟩
  | 45 => ⟨S4000000, .i32⟩
  | 46 => ⟨S4000000, .i32⟩
  | 47 => ⟨S4000000x1, .i32⟩
  | 48 => ⟨S4000000, .f32⟩
  | 49 => ⟨S4000000, .f32⟩
  | 50 => ⟨S_, .i32⟩
  | 51 => ⟨S4000000, .i32⟩
  | 52 => ⟨S4000000, .i1⟩
  | 53 => ⟨S_, .i32⟩
  | 54 => ⟨S4000000, .i32⟩
  | 55 => ⟨S4000000, .i32⟩
  | 56 => ⟨S4000000, .i32⟩
  | 57 => ⟨S4000000x1, .i32⟩
  | 58 => ⟨S4000000x64, .f32⟩
  | 59 => ⟨S4000000x1, .f32⟩
  | 60 => ⟨S4000000x64, .f32⟩
  | 61 => ⟨S4000000x64, .f32⟩
  | 62 => ⟨S_, .f32⟩
  | 63 => ⟨S250000x64, .f32⟩
  | 64 => ⟨S4000000x1, .i32⟩
  | 65 => ⟨S250000x64, .f32⟩
  | 66 => ⟨S250000, .f32⟩
  | 67 => ⟨S250000x1, .f32⟩
  | 68 => ⟨S250000x64, .f32⟩
  | 69 => ⟨S250000x64, .f32⟩
  | 70 => ⟨S250000x64, .f32⟩
  | 71 => ⟨S1x64, .f32⟩
  | 72 => ⟨S250000x64, .f32⟩
  | 73 => ⟨S250000x64, .f32⟩
  | 74 => ⟨S_, .f32⟩
  | 75 => ⟨S250000x64, .f32⟩
  | 76 => ⟨S250000x64, .f32⟩
  | 77 => ⟨S250000x64, .f32⟩
  | 78 => ⟨S_, .f32⟩
  | 79 => ⟨S4000000, .f32⟩
  | 80 => ⟨S_, .f32⟩
  | 81 => ⟨S250000, .f32⟩
  | 82 => ⟨S4000000x1, .i32⟩
  | 83 => ⟨S250000, .f32⟩
  | 84 => ⟨S_, .f32⟩
  | 85 => ⟨S250000, .f32⟩
  | 86 => ⟨S250000, .f32⟩
  | 87 => ⟨S250000, .f32⟩
  | 88 => ⟨S_, .i32⟩
  | 89 => ⟨S4000000, .i32⟩
  | 90 => ⟨S4000000, .i1⟩
  | 91 => ⟨S_, .i32⟩
  | 92 => ⟨S4000000, .i32⟩
  | 93 => ⟨S4000000, .i32⟩
  | 94 => ⟨S4000000, .i32⟩
  | 95 => ⟨S4000000x1, .i32⟩
  | 96 => ⟨S4000000, .f32⟩
  | 97 => ⟨S_, .i32⟩
  | 98 => ⟨S4000000, .i32⟩
  | 99 => ⟨S4000000, .i1⟩
  | 100 => ⟨S_, .i32⟩
  | 101 => ⟨S4000000, .i32⟩
  | 102 => ⟨S4000000, .i32⟩
  | 103 => ⟨S4000000, .i32⟩
  | 104 => ⟨S4000000x1, .i32⟩
  | 105 => ⟨S4000000, .f32⟩
  | 106 => ⟨S4000000, .f32⟩
  | 107 => ⟨S_, .i32⟩
  | 108 => ⟨S4000000, .i32⟩
  | 109 => ⟨S4000000, .i1⟩
  | 110 => ⟨S_, .i32⟩
  | 111 => ⟨S4000000, .i32⟩
  | 112 => ⟨S4000000, .i32⟩
  | 113 => ⟨S4000000, .i32⟩
  | 114 => ⟨S4000000x1, .i32⟩
  | 115 => ⟨S4000000x64, .f32⟩
  | 116 => ⟨S4000000x1, .f32⟩
  | 117 => ⟨S4000000x64, .f32⟩
  | 118 => ⟨S4000000x64, .f32⟩
  | 119 => ⟨S_, .f32⟩
  | 120 => ⟨S250000x64, .f32⟩
  | 121 => ⟨S4000000x1, .i32⟩
  | 122 => ⟨S250000x64, .f32⟩
  | 123 => ⟨S250000, .f32⟩
  | 124 => ⟨S250000x1, .f32⟩
  | 125 => ⟨S250000x64, .f32⟩
  | 126 => ⟨S250000x64, .f32⟩
  | 127 => ⟨S250000x64, .f32⟩
  | _ => ⟨S250000x1, .f32⟩

abbrev hbmTy0_1 (i : Nat) : BufTy := match i % 128 with
  | 0 => ⟨S1x64, .f32⟩
  | 1 => ⟨S250000x64, .f32⟩
  | 2 => ⟨S250000x64, .f32⟩
  | 3 => ⟨S_, .f32⟩
  | 4 => ⟨S250000x64, .f32⟩
  | 5 => ⟨S250000x64, .f32⟩
  | 6 => ⟨S_, .f32⟩
  | 7 => ⟨S512x64, .f32⟩
  | 8 => ⟨S250000x1, .i32⟩
  | 9 => ⟨S512x64, .f32⟩
  | 10 => ⟨S_, .f32⟩
  | 11 => ⟨S250000, .f32⟩
  | 12 => ⟨S_, .f32⟩
  | 13 => ⟨S512, .f32⟩
  | 14 => ⟨S250000x1, .i32⟩
  | 15 => ⟨S512, .f32⟩
  | 16 => ⟨S_, .f32⟩
  | 17 => ⟨S512, .f32⟩
  | 18 => ⟨S512, .f32⟩
  | 19 => ⟨S512x1, .f32⟩
  | 20 => ⟨S512x64, .f32⟩
  | 21 => ⟨S512x64, .f32⟩
  | _ => ⟨S250000x1, .f32⟩

abbrev hbmTy (i : Nat) : BufTy := match i / 128 with
  | 0 => hbmTy0_0 i
  | 1 => hbmTy0_1 i
  | _ => ⟨S250000x1, .f32⟩

abbrev bufTy : (tb : Table) → Fin (tcTables nBuf tb) → BufTy
  | .hbm, ⟨i, _⟩ => hbmTy i
  | _, _ => ⟨S250000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_cst : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_3 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_call1_cst : Ref sig .tc := ⟨.hbm, 74, rfl⟩
abbrev main_call1_v0 : Ref sig .tc := ⟨.hbm, 75, rfl⟩
abbrev main_v53 : Ref sig .tc := ⟨.hbm, 76, rfl⟩
abbrev main_v54 : Ref sig .tc := ⟨.hbm, 77, rfl⟩
abbrev main_cst_8 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_11 : Ref sig .tc := ⟨.hbm, 88, rfl⟩
abbrev main_v62 : Ref sig .tc := ⟨.hbm, 89, rfl⟩
abbrev main_v63 : Ref sig .tc := ⟨.hbm, 90, rfl⟩
abbrev main_c_12 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_13 : Ref sig .tc := ⟨.hbm, 97, rfl⟩
abbrev main_v69 : Ref sig .tc := ⟨.hbm, 98, rfl⟩
abbrev main_v70 : Ref sig .tc := ⟨.hbm, 99, rfl⟩
abbrev main_c_14 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_15 : Ref sig .tc := ⟨.hbm, 107, rfl⟩
abbrev main_v77 : Ref sig .tc := ⟨.hbm, 108, rfl⟩
abbrev main_v78 : Ref sig .tc := ⟨.hbm, 109, rfl⟩
abbrev main_c_16 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_17 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_call2_cst : Ref sig .tc := ⟨.hbm, 131, rfl⟩
abbrev main_call2_v0 : Ref sig .tc := ⟨.hbm, 132, rfl⟩
abbrev main_v98 : Ref sig .tc := ⟨.hbm, 133, rfl⟩
abbrev main_cst_18 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_19 : Ref sig .tc := ⟨.hbm, 138, rfl⟩
abbrev main_v102 : Ref sig .tc := ⟨.hbm, 139, rfl⟩
abbrev main_cst_20 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_21 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩

abbrev nD : Nat := 1
abbrev τ : Topo := Topo.v7x

variable {F : FTy → Type} [FloatOps F]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S64_S1x64_1 : S64.BroadcastsInDim S1x64 (![1] : Fin 1 → Fin S1x64.rank)
  bcast_S1x64_S250000x64_0_1 : S1x64.BroadcastsInDim S250000x64 (![0, 1] : Fin 2 → Fin S250000x64.rank)
  bcast_S_S250000x64 : S_.BroadcastsInDim S250000x64 (![] : Fin 0 → Fin S250000x64.rank)
  bcast_S_S4000000 : S_.BroadcastsInDim S4000000 (![] : Fin 0 → Fin S4000000.rank)
  bcast_S_S250000 : S_.BroadcastsInDim S250000 (![] : Fin 0 → Fin S250000.rank)
  bcast_S4000000_S4000000x1_0 : S4000000.BroadcastsInDim S4000000x1 (![0] : Fin 1 → Fin S4000000x1.rank)
  bcast_S4000000x1_S4000000x64_0_1 : S4000000x1.BroadcastsInDim S4000000x64 (![0, 1] : Fin 2 → Fin S4000000x64.rank)
  bcast_S250000_S250000x1_0 : S250000.BroadcastsInDim S250000x1 (![0] : Fin 1 → Fin S250000x1.rank)
  bcast_S250000x1_S250000x64_0_1 : S250000x1.BroadcastsInDim S250000x64 (![0, 1] : Fin 2 → Fin S250000x64.rank)
  bcast_S_S512x64 : S_.BroadcastsInDim S512x64 (![] : Fin 0 → Fin S512x64.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  dot_S250000x1_S1x64_S250000x64_1_0_0_1_n_n_wf : DotDims.WF S250000x1 S1x64 S250000x64 [1] [0] [0] [1] [] []
  dot_S250000x64_S64x64_S250000x64_1_0_0_1_n_n_wf : DotDims.WF S250000x64 S64x64 S250000x64 [1] [0] [0] [1] [] []
  scatter_S250000_S4000000x1_S4000000_n_0_0_1_wf : ScatterDims.WF S250000 S4000000x1 S4000000 [] [0] [0] 1
  gather_S250000_S4000000x1_S4000000_n_0_n_n_0_1_1_wf : GatherDims.WF S250000 S4000000x1 S4000000 [] [0] [] [0] [] 1 ![1]
  gather_S250000x64_S4000000x1_S4000000x64_1_0_n_n_0_1_164_wf : GatherDims.WF S250000x64 S4000000x1 S4000000x64 [1] [0] [] [0] [] 1 ![1, 64]
  scatter_S250000x64_S4000000x1_S4000000x64_1_0_0_1_wf : ScatterDims.WF S250000x64 S4000000x1 S4000000x64 [1] [0] [0] 1
  scatter_S512x64_S250000x1_S250000x64_1_0_0_1_wf : ScatterDims.WF S512x64 S250000x1 S250000x64 [1] [0] [0] 1
  scatter_S512_S250000x1_S250000_n_0_0_1_wf : ScatterDims.WF S512 S250000x1 S250000 [] [0] [0] 1

variable [Facts₀]

def dot_S250000x1_S1x64_S250000x64_1_0_0_1_n_n : DotDims S250000x1 S1x64 S250000x64 where
  lhsContracting := [1]
  rhsContracting := [0]
  lhsNonContracting := [0]
  rhsNonContracting := [1]
  lhsBatch := []
  rhsBatch := []
  wf := dot_S250000x1_S1x64_S250000x64_1_0_0_1_n_n_wf
def dot_S250000x64_S64x64_S250000x64_1_0_0_1_n_n : DotDims S250000x64 S64x64 S250000x64 where
  lhsContracting := [1]
  rhsContracting := [0]
  lhsNonContracting := [0]
  rhsNonContracting := [1]
  lhsBatch := []
  rhsBatch := []
  wf := dot_S250000x64_S64x64_S250000x64_1_0_0_1_n_n_wf
def scatter_S250000_S4000000x1_S4000000_n_0_0_1 : ScatterDims S250000 S4000000x1 S4000000 where
  updateWindowDims := []
  insertedWindowDims := [0]
  scatterDimsToOperandDims := [0]
  indexVectorDim := 1
  wf := scatter_S250000_S4000000x1_S4000000_n_0_0_1_wf
def gather_S250000_S4000000x1_S4000000_n_0_n_n_0_1_1 : GatherDims S250000 S4000000x1 S4000000 where
  offsetDims := []
  collapsedSliceDims := [0]
  operandBatchingDims := []
  startIndicesBatchingDims := []
  startIndexMap := [0]
  indexVectorDim := 1
  sliceSizes := ![1]
  wf := gather_S250000_S4000000x1_S4000000_n_0_n_n_0_1_1_wf
def gather_S250000x64_S4000000x1_S4000000x64_1_0_n_n_0_1_164 : GatherDims S250000x64 S4000000x1 S4000000x64 where
  offsetDims := [1]
  collapsedSliceDims := [0]
  operandBatchingDims := []
  startIndicesBatchingDims := []
  startIndexMap := [0]
  indexVectorDim := 1
  sliceSizes := ![1, 64]
  wf := gather_S250000x64_S4000000x1_S4000000x64_1_0_n_n_0_1_164_wf
def scatter_S250000x64_S4000000x1_S4000000x64_1_0_0_1 : ScatterDims S250000x64 S4000000x1 S4000000x64 where
  updateWindowDims := [1]
  insertedWindowDims := [0]
  scatterDimsToOperandDims := [0]
  indexVectorDim := 1
  wf := scatter_S250000x64_S4000000x1_S4000000x64_1_0_0_1_wf
def scatter_S512x64_S250000x1_S250000x64_1_0_0_1 : ScatterDims S512x64 S250000x1 S250000x64 where
  updateWindowDims := [1]
  insertedWindowDims := [0]
  scatterDimsToOperandDims := [0]
  indexVectorDim := 1
  wf := scatter_S512x64_S250000x1_S250000x64_1_0_0_1_wf
def scatter_S512_S250000x1_S250000_n_0_0_1 : ScatterDims S512 S250000x1 S250000 where
  updateWindowDims := []
  insertedWindowDims := [0]
  scatterDimsToOperandDims := [0]
  indexVectorDim := 1
  wf := scatter_S512_S250000x1_S250000_n_0_0_1_wf

class Facts : Prop extends Facts₀ where

variable [Facts]
-- ==== Proof.KRun.lean ====
/-
  The idealized kernel program's run with its result named.

  The program is nine segments: host operations, the embedding call, the first layer's product call, host operations
  (gather along the edges, scale, scatter-add onto the target nodes), the first combine call, the second layer's product
  call, host operations again, the second combine call, and the pooling host operations. The buffer contents at each
  boundary are a fold from the launch memory (Gen.W0 … Gen.W9). Every weakly fair execution terminates, without a fault,
  with every unscoped buffer at the last boundary's contents W9: in particular the result buffer holds W9 at the result,
  and the argument arrays hold what they were launched with.
-/
import proofs.«162392_j16415365005924_1_alg».proof.Proof.Gen.KernelIdeal.Frame

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v72) = W9 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v72 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.Net

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.LibLayers.lean ====
/-
  Fully connected layers on the extended reals.

  A layer takes an [M, K] array l, a [K, N] weight matrix W and N biases b to the [M, N] array whose entry (p, q) is
  the sum over k of l (p, k) · W (k, q), plus b q. The rectifier replaces every entry by the larger of the entry and the
  number the f32 zero word encodes. A three-layer perceptron rectifies after its first two layers and not after the
  third. Nothing here asks the entries to be finite: the extended reals' sum and product are total. Stated for any
  extents, over index functions into the extended reals, so that a kernel's and a host program's layers are compared as
  the same function.
-/
import Idealize.ShloMosaic.PureOps.Ideal
import Idealize.ShloMosaic.Lib.ValueIdx

noncomputable section

namespace Cert.LibLayers

open Idealize.ShloMosaic Idealize.ShloMosaic.ValueIdx
open scoped BigOperators

/-- One layer before its activation: entry (p, q) is the sum over k of l (p, k) · W (k, q), plus the q-th bias. -/
def dense {M K N : ℕ} (l : (⟨2, ![M, K]⟩ : Shape).Idx → EReal) (W : (⟨2, ![K, N]⟩ : Shape).Idx → EReal) (b : Fin N → EReal) :
    (⟨2, ![M, N]⟩ : Shape).Idx → EReal :=
  fun j => (∑ k : Fin K, l (ix2 (j 0) k) * W (ix2 k (j 1))) + b (j 1)

/-- The layer at explicit coordinates. -/
theorem dense_apply {M K N : ℕ} (l : (⟨2, ![M, K]⟩ : Shape).Idx → EReal) (W : (⟨2, ![K, N]⟩ : Shape).Idx → EReal) (b : Fin N → EReal)
    (p : Fin M) (q : Fin N) : dense l W b (ix2 p q) = (∑ k : Fin K, l (ix2 p k) * W (ix2 k q)) + b q := rfl

/-- The rectifier, entry by entry: the larger of the entry and the number the f32 zero word encodes. -/
def relu {s : Shape} (f : s.Idx → EReal) : s.Idx → EReal := fun j => max (f j) (Ideal.ofBits .f32 0x00000000#32)

/-- The rectifier at an index. -/
theorem relu_apply {s : Shape} (f : s.Idx → EReal) (j : s.Idx) : relu f j = max (f j) (Ideal.ofBits .f32 0x00000000#32) := rfl

/-- Three layers, rectified after the first and after the second. -/
def mlp {M K1 K2 K3 N : ℕ} (x : (⟨2, ![M, K1]⟩ : Shape).Idx → EReal)
    (W1 : (⟨2, ![K1, K2]⟩ : Shape).Idx → EReal) (b1 : Fin K2 → EReal)
    (W2 : (⟨2, ![K2, K3]⟩ : Shape).Idx → EReal) (b2 : Fin K3 → EReal)
    (W3 : (⟨2, ![K3, N]⟩ : Shape).Idx → EReal) (b3 : Fin N → EReal) : (⟨2, ![M, N]⟩ : Shape).Idx → EReal :=
  dense (relu (dense (relu (dense x W1 b1)) W2 b2)) W3 b3

end Cert.LibLayers

end
-- ==== Proof.LibBlockLayer.lean ====
/-
  A layer as a kernel body computes it on one block.

  The body multiplies a block of activations by a block of the weight matrix into a zero accumulator, adds the bias
  block — one row, cast to its own shape and repeated over the rows — and, for a rectified layer, takes the maximum
  with a repeated zero. Entry by entry that is a layer of LibLayers.lean whose biases are the row's entries.
-/
import proofs.«162392_j16415365005924_1_alg».proof.Proof.LibPlainDot
import proofs.«162392_j16415365005924_1_alg».proof.Proof.LibLayers
import Idealize.ShloMosaic.Lib.ValueLayout
import Idealize.ShloMosaic.Lib.Pipeline.Value

noncomputable section

namespace Cert.LibBlockLayer

open Idealize.ShloMosaic Idealize.ShloMosaic.ValueIdx Cert.LibLayers
open scoped BigOperators

/-- The entries of a one-row array as a function of the column. -/
abbrev rowAt {N : ℕ} (r : (⟨2, ![1, N]⟩ : Shape).Idx → EReal) : Fin N → EReal := fun q => r (ix2 (0 : Fin 1) q)

variable {M K N : ℕ} (d : DotDims ⟨2, ![M, K]⟩ ⟨2, ![K, N]⟩ ⟨2, ![M, N]⟩)

/-- The product into a zero accumulator plus the repeated bias row is the layer before its activation. -/
theorem blockDense {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (r : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) :
    addf (FloatOps.matmul d prec l W (constant ⟨2, ![M, N]⟩ .f32 0x00000000#32))
        (broadcastTo ⟨2, ![M, N]⟩ (shapeCast ⟨2, ![1, N]⟩ r hc) hb)
      = dense l W (rowAt r) := by
  funext j
  obtain ⟨p, q, rfl⟩ : ∃ (p : Fin M) (q : Fin N), j = ix2 p q := ⟨j 0, j 1, eq_ix2 j⟩
  rw [addf_apply, Cert.LibPlainDot.matmul_plain_apply d hlc hrc hlb hrb hln hrn, broadcastTo_1b_ab_apply, shapeCast_self]
  rfl

/-- The same followed by the maximum with a repeated zero is the rectified layer. -/
theorem blockDense_relu {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (r : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) :
    maximumf (addf (FloatOps.matmul d prec l W (constant ⟨2, ![M, N]⟩ .f32 0x00000000#32))
        (broadcastTo ⟨2, ![M, N]⟩ (shapeCast ⟨2, ![1, N]⟩ r hc) hb))
      (broadcast ⟨2, ![M, N]⟩ (Scalar.ofBits (F := Ideal) .f32 0x00000000#32))
      = relu (dense l W (rowAt r)) := by
  rw [blockDense d hlc hrc hlb hrb hln hrn]
  rfl

/-- A layer read on a tile: when the tile's rows, columns and bias entries are the arrays' at the tile's place, the
    tile's layer at a local index is the arrays' layer at the index's place. -/
theorem dense_tile {M' N' : ℕ} (L : (⟨2, ![M', K]⟩ : Shape).Idx → EReal) (W' : (⟨2, ![K, N']⟩ : Shape).Idx → EReal)
    (B : (⟨2, ![1, N']⟩ : Shape).Idx → EReal)
    (l : (⟨2, ![M, K]⟩ : Shape).Idx → EReal) (w : (⟨2, ![K, N]⟩ : Shape).Idx → EReal) (b : (⟨2, ![1, N]⟩ : Shape).Idx → EReal)
    (y : (⟨2, ![M, N]⟩ : Shape).Idx) (e : (⟨2, ![M', N']⟩ : Shape).Idx)
    (hl : ∀ k : Fin K, l (ix2 (y 0) k) = L (ix2 (e 0) k))
    (hw : ∀ k : Fin K, w (ix2 k (y 1)) = W' (ix2 k (e 1)))
    (hb : b (ix2 (0 : Fin 1) (y 1)) = B (ix2 (0 : Fin 1) (e 1))) :
    dense l w (rowAt b) y = dense L W' (rowAt B) e := by
  show (∑ k : Fin K, l (ix2 (y 0) k) * w (ix2 k (y 1))) + b (ix2 (0 : Fin 1) (y 1))
    = (∑ k : Fin K, L (ix2 (e 0) k) * W' (ix2 k (e 1))) + B (ix2 (0 : Fin 1) (e 1))
  rw [hb]
  exact congrArg (· + B (ix2 (0 : Fin 1) (e 1))) (Finset.sum_congr rfl fun k _ => by rw [hl k, hw k])

end Cert.LibBlockLayer

end
-- ==== Proof.GcnSpec.lean ====
/-
  The layers of a two-layer graph convolution network as functions on the extended reals, for any extents.

  * mm l W: entry (p, q) is the sum over k of l (p, k) · W (k, q) — a feature matrix times a weight matrix;
  * scaleRows h s: entry (p, q) is h (p, q) · s (p, 0) — every node's row scaled by the node's own weight, the weights
    standing in a column;
  * combine a st b: entry (p, q) is max ((a (p, q) + st (p, q)) + b (0, q)) 0 — aggregated messages plus the node's own
    scaled features plus the bias row, rectified;
  * the embedding layer is LibLayers' rectified dense layer.

  Each is ROW-LOCAL: entry (p, q) reads row p of the node-indexed operands only. So a block of rows of the result is the
  same function of the corresponding blocks of rows (the tile lemmas). A kernel body's arithmetic on one block is one of
  these functions of its blocks (the body lemmas): at the extended reals a rounding to a narrower float format is the
  identity and a product into a zero accumulator is the plain sum. Nothing asks an entry to be finite.
-/
import proofs.«162392_j16415365005924_1_alg».proof.Proof.LibBlockLayer
import Idealize.ShloMosaic.Lib.ValueLayout
import Idealize.ShloMosaic.Lib.Pipeline.Value

noncomputable section

namespace Cert.GcnSpec

open Idealize.ShloMosaic Idealize.ShloMosaic.ValueIdx Cert.LibLayers Cert.LibBlockLayer
open scoped BigOperators

/-- A feature matrix times a weight matrix. -/
def mm {M K N : ℕ} (l : (⟨2, ![M, K]⟩ : Shape).Idx → EReal) (W : (⟨2, ![K, N]⟩ : Shape).Idx → EReal) :
    (⟨2, ![M, N]⟩ : Shape).Idx → EReal :=
  fun j => ∑ k : Fin K, l (ix2 (j 0) k) * W (ix2 k (j 1))

/-- Every row scaled by its own weight, the weights standing in a column. -/
def scaleRows {M N : ℕ} (h : (⟨2, ![M, N]⟩ : Shape).Idx → EReal) (s : (⟨2, ![M, 1]⟩ : Shape).Idx → EReal) :
    (⟨2, ![M, N]⟩ : Shape).Idx → EReal :=
  fun j => h j * s (ix2 (j 0) (0 : Fin 1))

/-- Aggregated messages plus the node's own scaled features plus the bias row, rectified. -/
def combine {M N : ℕ} (a st : (⟨2, ![M, N]⟩ : Shape).Idx → EReal) (b : (⟨2, ![1, N]⟩ : Shape).Idx → EReal) :
    (⟨2, ![M, N]⟩ : Shape).Idx → EReal :=
  fun j => max ((a j + st j) + b (ix2 (0 : Fin 1) (j 1))) (Ideal.ofBits .f32 0x00000000#32)

/-! ## A kernel body's arithmetic on one block -/

section Body

variable {M K N : ℕ} (d : DotDims ⟨2, ![M, K]⟩ ⟨2, ![K, N]⟩ ⟨2, ![M, N]⟩)

/-- Rounded operands multiplied into a zero accumulator: the plain product. -/
theorem mmBody (hlc : d.lhsContracting = [1]) (hrc : d.rhsContracting = [0])
    (hlb : d.lhsBatch = []) (hrb : d.rhsBatch = []) (hln : d.lhsNonContracting = [0]) (hrn : d.rhsNonContracting = [1])
    (prec : Option ContractPrecision) (x : FVec Ideal ⟨2, ![M, K]⟩ .f32) (W : FVec Ideal ⟨2, ![K, N]⟩ .f32)
    (h1 : FTy.bf16.bits < FTy.f32.bits) (h2 : FTy.bf16.bits < FTy.f32.bits) :
    FloatOps.matmul d prec (truncf .bf16 x h1) (truncf .bf16 W h2) (constant ⟨2, ![M, N]⟩ .f32 0x00000000#32) = mm x W := by
  funext j
  obtain ⟨p, q, rfl⟩ : ∃ (p : Fin M) (q : Fin N), j = ix2 p q := ⟨j 0, j 1, eq_ix2 j⟩
  rw [Cert.LibPlainDot.matmul_plain_apply d hlc hrc hlb hrb hln hrn]
  rfl

/-- The embedding body: rounded operands multiplied, the bias row added over the rows, rectified. -/
theorem embedBody (hlc : d.lhsContracting = [1]) (hrc : d.rhsContracting = [0])
    (hlb : d.lhsBatch = []) (hrb : d.rhsBatch = []) (hln : d.lhsNonContracting = [0]) (hrn : d.rhsNonContracting = [1])
    (prec : Option ContractPrecision) (x : FVec Ideal ⟨2, ![M, K]⟩ .f32) (W : FVec Ideal ⟨2, ![K, N]⟩ .f32)
    (r : FVec Ideal ⟨2, ![1, N]⟩ .f32)
    (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![M, N]⟩) :
    maximumf (addf (FloatOps.matmul d prec (truncf .bf16 x h1) (truncf .bf16 W h2) (constant ⟨2, ![M, N]⟩ .f32 0x00000000#32))
        (broadcastTo ⟨2, ![M, N]⟩ (shapeCast ⟨2, ![1, N]⟩ r hc) hb))
      (broadcast ⟨2, ![M, N]⟩ (Scalar.ofBits (F := Ideal) .f32 0x00000000#32))
      = relu (dense x W (rowAt r)) := by
  rw [blockDense_relu d hlc hrc hlb hrb hln hrn]
  rfl

end Body

/-- A column repeated over the columns reads, at (p, q), the column at p. -/
theorem colRepeat_apply {α : Type} {M N : ℕ} (s : (⟨2, ![M, 1]⟩ : Shape).Idx → α)
    (hb : (⟨2, ![M, 1]⟩ : Shape).Broadcasts ⟨2, ![M, N]⟩) (p : Fin M) (q : Fin N) :
    broadcastTo ⟨2, ![M, N]⟩ s hb (ix2 p q) = s (ix2 p (0 : Fin 1)) := by
  refine broadcastTo_apply s hb (ix2 p q) (ix2 p (0 : Fin 1)) fun a => ?_
  match a with
  | ⟨0, _⟩ =>
    show p.val = if M = 1 then 0 else p.val
    split
    · have := p.isLt; omega
    · rfl
  | ⟨1, _⟩ => show 0 = if (1 : ℕ) = 1 then 0 else q.val; rw [if_pos rfl]

/-- The scaling body: a block times its column of weights repeated over the columns. -/
theorem scaleBody {M N : ℕ} (h : FVec Ideal ⟨2, ![M, N]⟩ .f32) (s : FVec Ideal ⟨2, ![M, 1]⟩ .f32)
    (hc : (⟨2, ![M, 1]⟩ : Shape).ShapeCasts ⟨2, ![M, 1]⟩) (hb : (⟨2, ![M, 1]⟩ : Shape).Broadcasts ⟨2, ![M, N]⟩) :
    mulf h (broadcastTo ⟨2, ![M, N]⟩ (shapeCast ⟨2, ![M, 1]⟩ s hc) hb) = scaleRows h s := by
  funext j
  obtain ⟨p, q, rfl⟩ : ∃ (p : Fin M) (q : Fin N), j = ix2 p q := ⟨j 0, j 1, eq_ix2 j⟩
  rw [mulf_apply, colRepeat_apply, shapeCast_self]
  rfl

/-- The combine body: two blocks added, the bias row added over the rows, rectified. -/
theorem combineBody {M N : ℕ} (a st : FVec Ideal ⟨2, ![M, N]⟩ .f32) (b : FVec Ideal ⟨2, ![1, N]⟩ .f32)
    (ha : (⟨2, ![M, N]⟩ : Shape).ShapeCasts ⟨2, ![M, N]⟩) (hs : (⟨2, ![M, N]⟩ : Shape).ShapeCasts ⟨2, ![M, N]⟩)
    (hc : (⟨2, ![1, N]⟩ : Shape).ShapeCasts ⟨2, ![1, N]⟩) (hb : (⟨2, ![1, N]⟩ : Shape).Broadcasts ⟨2, ![M, N]⟩) :
    maximumf (addf (addf (shapeCast ⟨2, ![M, N]⟩ a ha) (shapeCast ⟨2, ![M, N]⟩ st hs))
        (broadcastTo ⟨2, ![M, N]⟩ (shapeCast ⟨2, ![1, N]⟩ b hc) hb))
      (broadcast ⟨2, ![M, N]⟩ (Scalar.ofBits (F := Ideal) .f32 0x00000000#32))
      = combine a st b := by
  funext j
  obtain ⟨p, q, rfl⟩ : ∃ (p : Fin M) (q : Fin N), j = ix2 p q := ⟨j 0, j 1, eq_ix2 j⟩
  rw [maximumf_apply, addf_apply, addf_apply, broadcastTo_1b_ab_apply, shapeCast_self, shapeCast_self, shapeCast_self]
  rfl

/-! ## Row-locality: a block of rows of the result is the function of the blocks of rows -/

/-- The product on a tile. -/
theorem mm_tile {M M' K N : ℕ} (L : (⟨2, ![M', K]⟩ : Shape).Idx → EReal) (l : (⟨2, ![M, K]⟩ : Shape).Idx → EReal)
    (W W' : (⟨2, ![K, N]⟩ : Shape).Idx → EReal)
    (y : (⟨2, ![M, N]⟩ : Shape).Idx) (e : (⟨2, ![M', N]⟩ : Shape).Idx)
    (hl : ∀ k : Fin K, l (ix2 (y 0) k) = L (ix2 (e 0) k)) (hw : ∀ k : Fin K, W (ix2 k (y 1)) = W' (ix2 k (e 1))) :
    mm l W y = mm L W' e :=
  Finset.sum_congr rfl fun k _ => by rw [hl k, hw k]

/-- The row scaling on a tile. -/
theorem scaleRows_tile {M M' N : ℕ} (h : (⟨2, ![M, N]⟩ : Shape).Idx → EReal) (H : (⟨2, ![M', N]⟩ : Shape).Idx → EReal)
    (s : (⟨2, ![M, 1]⟩ : Shape).Idx → EReal) (S : (⟨2, ![M', 1]⟩ : Shape).Idx → EReal)
    (y : (⟨2, ![M, N]⟩ : Shape).Idx) (e : (⟨2, ![M', N]⟩ : Shape).Idx)
    (hh : h y = H e) (hs : s (ix2 (y 0) (0 : Fin 1)) = S (ix2 (e 0) (0 : Fin 1))) :
    scaleRows h s y = scaleRows H S e := by
  show h y * s (ix2 (y 0) (0 : Fin 1)) = H e * S (ix2 (e 0) (0 : Fin 1))
  rw [hh, hs]

/-- The combine on a tile. -/
theorem combine_tile {M M' N : ℕ} (a st : (⟨2, ![M, N]⟩ : Shape).Idx → EReal) (A ST : (⟨2, ![M', N]⟩ : Shape).Idx → EReal)
    (b B : (⟨2, ![1, N]⟩ : Shape).Idx → EReal)
    (y : (⟨2, ![M, N]⟩ : Shape).Idx) (e : (⟨2, ![M', N]⟩ : Shape).Idx)
    (ha : a y = A e) (hs : st y = ST e) (hb : b (ix2 (0 : Fin 1) (y 1)) = B (ix2 (0 : Fin 1) (e 1))) :
    combine a st b y = combine A ST B e := by
  show max ((a y + st y) + b (ix2 (0 : Fin 1) (y 1))) _ = max ((A e + ST e) + B (ix2 (0 : Fin 1) (e 1))) _
  rw [ha, hs, hb]

/-- The rectifier on a tile. -/
theorem relu_tile {s s' : Shape} (f : s.Idx → EReal) (g : s'.Idx → EReal) (y : s.Idx) (e : s'.Idx) (h : f y = g e) :
    relu f y = relu g e := by
  show max (f y) _ = max (g e) _
  rw [h]

end Cert.GcnSpec

end
-- ==== Proof.LibHostDense.lean ====
/-
  A dense layer of a host program read at coordinates, at the extended reals.

  A `dot_general` of an `[M, K]` array by a `[K, N]` matrix that contracts the left operand's columns with the right
  operand's rows and has no batch axis is, at `(p, q)`, the sum over `k` of `l (p, k) · W (k, q)`: the product into a zero
  accumulator and the host's product are one sum. A length-`N` vector laid out as the row `[1, N]` (`broadcast_in_dim`
  along axis 1) and repeated over `M` rows reads, at `(p, q)`, the vector at `q`; a scalar repeated over an array reads the
  scalar at every index. Together they read a rectified dense layer, `max (l · W + b) c`, at `(p, q)`.
-/
import proofs.«162392_j16415365005924_1_alg».proof.Proof.LibPlainDot
import Idealize.ShloMosaic.Lib.Pipeline.Value

noncomputable section

namespace Cert.LibHostDense

open Idealize.ShloMosaic Idealize.ShloMosaic.ValueIdx
open scoped BigOperators

variable {α : Type}

/-- The host's product at `(p, q)`. -/
theorem hostDot_plain_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  show FloatOps.dotGeneral d prec .single l r (ix2 p q) = _
  rw [Ideal.dotGeneral_apply, ← Ideal.matmul_constant_zero_apply d prec]
  exact Cert.LibPlainDot.matmul_plain_apply d hlc hrc hlb hrb hln hrn prec l r p q

/-- A length-`n` vector laid out as the row `[1, n]` reads, at `(0, q)`, the vector at `q`. -/
theorem bcastRow_apply {n : ℕ} (x : (⟨1, ![n]⟩ : Shape).Idx → α)
    (h : (⟨1, ![n]⟩ : Shape).BroadcastsInDim ⟨2, ![1, n]⟩ (![1] : Fin 1 → Fin 2)) (u : Fin 1) (q : Fin n) :
    broadcastInDim ⟨2, ![1, n]⟩ ![1] h x (ix2 u q) = x (ix1 q) := by
  refine broadcastInDim_apply _ h x (ix2 u q) (ix1 q) fun a => ?_
  match a with
  | ⟨0, _⟩ =>
    show q.val = if n = 1 then 0 else q.val
    split
    · have := q.isLt; omega
    · rfl

/-- A row `[1, n]` repeated over `m` rows reads, at `(p, q)`, the row at `q`. -/
theorem bcastRows_apply {m n : ℕ} (x : (⟨2, ![1, n]⟩ : Shape).Idx → α)
    (h : (⟨2, ![1, n]⟩ : Shape).BroadcastsInDim ⟨2, ![m, n]⟩ (![0, 1] : Fin 2 → Fin 2)) (p : Fin m) (q : Fin n) :
    broadcastInDim ⟨2, ![m, n]⟩ ![0, 1] h x (ix2 p q) = x (ix2 (0 : Fin 1) q) := by
  refine broadcastInDim_apply _ h x (ix2 p q) (ix2 (0 : Fin 1) q) fun a => ?_
  match a with
  | ⟨0, _⟩ => show 0 = if (1 : ℕ) = 1 then 0 else p.val; rw [if_pos rfl]
  | ⟨1, _⟩ =>
    show q.val = if n = 1 then 0 else q.val
    split
    · have := q.isLt; omega
    · rfl

/-- A scalar repeated over an array reads the scalar at every index. -/
theorem bcastScalar_apply {s : Shape} (x : (⟨0, ![]⟩ : Shape).Idx → α)
    (h : (⟨0, ![]⟩ : Shape).BroadcastsInDim s (![] : Fin 0 → Fin s.rank)) (i : s.Idx) :
    broadcastInDim s ![] h x i = x ix0 :=
  broadcastInDim_apply _ h x i ix0 fun a => a.elim0

/-- A rectified dense layer of a host program at `(p, q)`: the product, the bias row repeated over the rows, the
    maximum with a repeated scalar constant. -/
theorem hostDenseMax_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) (w : BitVec 32) (p : Fin M) (q : Fin N) :
    maximumf (addf (Host.dotGeneral d prec l W)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 w)) (ix2 p q)
      = max ((∑ k : Fin K, l (ix2 p k) * W (ix2 k q)) + b (ix1 q)) (Ideal.ofBits .f32 w) := by
  rw [maximumf_apply, addf_apply, hostDot_plain_apply d hlc hrc hlb hrb hln hrn, bcastRows_apply, bcastRow_apply,
    bcastScalar_apply, constant_apply]

end Cert.LibHostDense

end
-- ==== Proof.LibHostLayer.lean ====
/-
  Layers of a host program as whole arrays, on the extended reals.

  A product of the activations with a weight matrix (contracting the activations' columns with the weights' rows, no
  batch axis), plus a bias vector laid out as a row and repeated over the rows, is the layer of LibLayers.lean with the
  bias vector read at its one coordinate; followed by a maximum with a repeated zero it is the rectified layer. Stated
  for any extents, as equalities of whole arrays, so that a composed term of several layers is rewritten layer by layer.
-/
import proofs.«162392_j16415365005924_1_alg».proof.Proof.LibHostDense
import proofs.«162392_j16415365005924_1_alg».proof.Proof.LibLayers

noncomputable section

namespace Cert.LibHostLayer

open Idealize.ShloMosaic Idealize.ShloMosaic.ValueIdx Cert.LibLayers Cert.LibHostDense
open scoped BigOperators

/-- A bias vector as a function of its one coordinate. -/
abbrev vecAt {N : ℕ} (b : (⟨1, ![N]⟩ : Shape).Idx → EReal) : Fin N → EReal := fun q => b (ix1 q)

/-- A rectified layer of a host program, as a whole array. -/
theorem hostLayer_relu {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf (Host.dotGeneral d prec l W)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 0x00000000#32))
      = relu (dense l W (vecAt b)) := by
  funext j
  obtain ⟨p, q, rfl⟩ : ∃ (p : Fin M) (q : Fin N), j = ix2 p q := ⟨j 0, j 1, eq_ix2 j⟩
  exact hostDenseMax_apply d hlc hrc hlb hrb hln hrn prec l W b h1 h2 h0 _ p q

/-- A layer of a host program with no activation, as a whole array. -/
theorem hostLayer_plain {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    addf (Host.dotGeneral d prec l W)
        (broadcastInDim ⟨2, ![M, N]⟩ ![0, 1] h2 (broadcastInDim ⟨2, ![1, N]⟩ ![1] h1 b))
      = dense l W (vecAt b) := by
  funext j
  obtain ⟨p, q, rfl⟩ : ∃ (p : Fin M) (q : Fin N), j = ix2 p q := ⟨j 0, j 1, eq_ix2 j⟩
  rw [addf_apply, hostDot_plain_apply d hlc hrc hlb hrb hln hrn, bcastRows_apply, bcastRow_apply]
  rfl

end Cert.LibHostLayer

end
-- ==== Proof.LibGcnLayer.lean ====
/-
  One graph-convolution layer read at coordinates, at the extended reals.

  The layer's value at node `p` and feature `q` is `agg (p, q) + s (p) · h (p, q) + b (q)`, where `h` is the
  projected feature matrix, `s` the self-loop weight of each node laid out as a column and repeated over the
  features, `agg` the aggregated neighbour messages and `b` the bias laid out as a row and repeated over the
  nodes. Two spellings of it are compared: `(h · s + agg) + b` with the bias row cast from a vector and read
  through its one row, and `(agg + s · h) + b` with the bias row repeated over the nodes by two
  `broadcast_in_dim`s. They agree at every extended real because sum and product are commutative there; no
  finiteness is needed. The same holds after a maximum with a repeated scalar constant (the rectifier).

  Also here: a length-`n` vector laid out as the column `[n, 1]` and that column repeated over `c` columns,
  read at coordinates.
-/
import Idealize.ShloMosaic.Lib.Pipeline.Value
import Idealize.ShloMosaic.Lib.ValueIdx
import Idealize.ShloMosaic.Lib.ValueLayout

noncomputable section

namespace Cert.LibGcnLayer

open Idealize.ShloMosaic Idealize.ShloMosaic.ValueIdx

variable {α : Type}

/-- A length-`n` vector laid out as the column `[n, 1]` reads, at `(p, u)`, the vector at `p`. -/
theorem bcastCol_apply {n : ℕ} (x : (⟨1, ![n]⟩ : Shape).Idx → α)
    (h : (⟨1, ![n]⟩ : Shape).BroadcastsInDim ⟨2, ![n, 1]⟩ (![0] : Fin 1 → Fin 2)) (p : Fin n) (u : Fin 1) :
    broadcastInDim ⟨2, ![n, 1]⟩ ![0] h x (ix2 p u) = x (ix1 p) := by
  refine broadcastInDim_apply _ h x (ix2 p u) (ix1 p) fun a => ?_
  match a with
  | ⟨0, _⟩ =>
    show p.val = if n = 1 then 0 else p.val
    split
    · have := p.isLt; omega
    · rfl

/-- A column `[n, 1]` repeated over `c` columns reads, at `(p, q)`, the column at `p`. -/
theorem bcastCols_apply {n c : ℕ} (x : (⟨2, ![n, 1]⟩ : Shape).Idx → α)
    (h : (⟨2, ![n, 1]⟩ : Shape).BroadcastsInDim ⟨2, ![n, c]⟩ (![0, 1] : Fin 2 → Fin 2)) (p : Fin n) (q : Fin c) :
    broadcastInDim ⟨2, ![n, c]⟩ ![0, 1] h x (ix2 p q) = x (ix2 p (0 : Fin 1)) := by
  refine broadcastInDim_apply _ h x (ix2 p q) (ix2 p (0 : Fin 1)) fun a => ?_
  match a with
  | ⟨0, _⟩ =>
    show p.val = if n = 1 then 0 else p.val
    split
    · have := p.isLt; omega
    · rfl
  | ⟨1, _⟩ => show 0 = if (1 : ℕ) = 1 then 0 else q.val; rw [if_pos rfl]

/-- A length-`c` vector laid out as the row `[1, c]` and repeated over `n` rows reads, at `(p, q)`, the vector at `q`. -/
theorem bcastRowRows_apply {n c : ℕ} (b : (⟨1, ![c]⟩ : Shape).Idx → α)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2)) (p : Fin n) (q : Fin c) :
    broadcastInDim ⟨2, ![n, c]⟩ ![0, 1] h2 (broadcastInDim ⟨2, ![1, c]⟩ ![1] h1 b) (ix2 p q) = b (ix1 q) := by
  have e1 : broadcastInDim ⟨2, ![n, c]⟩ ![0, 1] h2 (broadcastInDim ⟨2, ![1, c]⟩ ![1] h1 b) (ix2 p q)
      = broadcastInDim ⟨2, ![1, c]⟩ ![1] h1 b (ix2 (0 : Fin 1) q) := by
    refine broadcastInDim_apply _ h2 _ (ix2 p q) (ix2 (0 : Fin 1) q) fun a => ?_
    match a with
    | ⟨0, _⟩ => show 0 = if (1 : ℕ) = 1 then 0 else p.val; rw [if_pos rfl]
    | ⟨1, _⟩ =>
      show q.val = if c = 1 then 0 else q.val
      split
      · have := q.isLt; omega
      · rfl
  rw [e1]
  refine broadcastInDim_apply _ h1 b (ix2 (0 : Fin 1) q) (ix1 q) fun a => ?_
  match a with
  | ⟨0, _⟩ =>
    show q.val = if c = 1 then 0 else q.val
    split
    · have := q.isLt; omega
    · rfl

/-- A length-`c` vector cast to the row `[1, c]` reads, at `(0, q)`, the vector at `q`. -/
theorem castRow_apply {c : ℕ} (b : (⟨1, ![c]⟩ : Shape).Idx → α) (h : (⟨1, ![c]⟩ : Shape).ShapeCasts ⟨2, ![1, c]⟩) (q : Fin c) :
    shapeCast (⟨2, ![1, c]⟩ : Shape) b h (ix2 (0 : Fin 1) q) = b (ix1 q) := by
  refine shapeCast_apply b h (ix2 (0 : Fin 1) q) (ix1 q) ?_
  rw [Shape.rowMajor_val_one, Shape.rowMajor_val_two]
  show q.val = (0 : Fin 1).val * c + q.val
  simp

/-- The layer without the rectifier: `(h · s + agg) + b` through the cast bias row is `(agg + s · h) + b` through the
    repeated bias row, at every node and feature. -/
theorem layer_eq {n c : ℕ} (hW sn agg : FVec Ideal ⟨2, ![n, c]⟩ .f32) (b : FVec Ideal ⟨1, ![c]⟩ .f32)
    (hc : (⟨1, ![c]⟩ : Shape).ShapeCasts ⟨2, ![1, c]⟩)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2)) (p : Fin n) (q : Fin c) :
    (mulf hW sn (ix2 p q) + agg (ix2 p q)) + shapeCast (⟨2, ![1, c]⟩ : Shape) b hc (ix2 (0 : Fin 1) q)
      = addf (addf agg (mulf sn hW)) (broadcastInDim ⟨2, ![n, c]⟩ ![0, 1] h2 (broadcastInDim ⟨2, ![1, c]⟩ ![1] h1 b)) (ix2 p q) := by
  rw [addf_apply, addf_apply, mulf_apply, mulf_apply, bcastRowRows_apply, castRow_apply, mul_comm (hW (ix2 p q)),
    add_comm (sn (ix2 p q) * hW (ix2 p q))]

/-- The rectified layer: the maximum of either spelling with a scalar constant, the constant repeated over the array on
    one side. -/
theorem layer_relu_eq {n c : ℕ} (hW sn agg : FVec Ideal ⟨2, ![n, c]⟩ .f32) (b : FVec Ideal ⟨1, ![c]⟩ .f32)
    (hc : (⟨1, ![c]⟩ : Shape).ShapeCasts ⟨2, ![1, c]⟩)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2))
    (h0 : (⟨0, ![]⟩ : Shape).BroadcastsInDim ⟨2, ![n, c]⟩ (![] : Fin 0 → Fin 2)) (w : BitVec 32) (p : Fin n) (q : Fin c) :
    max ((mulf hW sn (ix2 p q) + agg (ix2 p q)) + shapeCast (⟨2, ![1, c]⟩ : Shape) b hc (ix2 (0 : Fin 1) q)) (Ideal.ofBits .f32 w)
      = maximumf (addf (addf agg (mulf sn hW)) (broadcastInDim ⟨2, ![n, c]⟩ ![0, 1] h2 (broadcastInDim ⟨2, ![1, c]⟩ ![1] h1 b)))
          (broadcastInDim ⟨2, ![n, c]⟩ ![] h0 (constant (F := Ideal) ⟨0, ![]⟩ .f32 w)) (ix2 p q) := by
  rw [maximumf_apply, ← layer_eq hW sn agg b hc h1 h2 p q]
  congr 1

end Cert.LibGcnLayer

end
-- ==== Proof.LibColumn.lean ====
/-
  Columns and rows read at coordinates, for any extents and any element type.

  * a column [n,1] cast to a vector [n] reads the column at (i, 0), and a vector [n] cast to a column [n,1] reads the
    vector at i;
  * column k of an [n,c] matrix taken as a vector (the [n,1] cut at offset (0,k), cast to [n]) reads the matrix at (i,k);
  * a length-c vector laid out as the row [1,c] and repeated over n rows reads the vector at the column's number;
  * a vector stood up as a column by a broadcast along axis 0 reads the vector at the row's number.
-/
import Idealize.ShloMosaic.Lib.ValueIdx
import Idealize.ShloMosaic.Lib.ValueLayout
import Idealize.ShloMosaic.Lib.Pipeline.Value

noncomputable section

namespace Cert.LibColumn

open Idealize.ShloMosaic Idealize.ShloMosaic.ValueIdx

variable {α : Type}

/-- A column [n,1] cast to a vector [n] reads the column at (i, 0). -/
theorem shapeCast_a1_a_apply {n : ℕ} (x : (⟨2, ![n, 1]⟩ : Shape).Idx → α)
    (h : (⟨2, ![n, 1]⟩ : Shape).ShapeCasts ⟨1, ![n]⟩) (i : Fin n) :
    shapeCast ⟨1, ![n]⟩ x h (ix1 i) = x (ix2 i (0 : Fin 1)) :=
  shapeCast_apply x h _ _ (by
    rw [Shape.rowMajor_val_two, Shape.rowMajor_val_one]
    show i.val * 1 + 0 = i.val
    omega)

/-- A vector [n] cast to a column [n,1] reads the vector at the row's number. -/
theorem shapeCast_a_a1_apply {n : ℕ} (x : (⟨1, ![n]⟩ : Shape).Idx → α)
    (h : (⟨1, ![n]⟩ : Shape).ShapeCasts ⟨2, ![n, 1]⟩) (i : Fin n) (u : Fin 1) :
    shapeCast ⟨2, ![n, 1]⟩ x h (ix2 i u) = x (ix1 i) :=
  shapeCast_apply x h _ _ (by
    have hu : u.val = 0 := by omega
    rw [Shape.rowMajor_val_two, Shape.rowMajor_val_one]
    show i.val = i.val * 1 + u.val
    omega)

/-- Column k of an [n,c] matrix taken as a vector reads the matrix at (i, k). -/
theorem column_apply {n c : ℕ} (k : ℕ) (X : (⟨2, ![n, c]⟩ : Shape).Idx → α)
    (hs : (⟨2, ![n, c]⟩ : Shape).Slices ![0, k] ⟨2, ![n, 1]⟩)
    (hc : (⟨2, ![n, 1]⟩ : Shape).ShapeCasts ⟨1, ![n]⟩) (i : Fin n) (hk : k < c) :
    shapeCast ⟨1, ![n]⟩ (extractStridedSlice ⟨2, ![n, 1]⟩ ![0, k] X hs) hc (ix1 i) = X (ix2 i ⟨k, hk⟩) := by
  rw [shapeCast_a1_a_apply]
  exact slice2_axis1_apply k X hs i (0 : Fin 1) ⟨k, hk⟩ rfl

/-- A length-c vector laid out as the row [1,c] reads the vector at the column's number. -/
theorem rowOf_apply {c : ℕ} (v : (⟨1, ![c]⟩ : Shape).Idx → α)
    (h1 : (⟨1, ![c]⟩ : Shape).BroadcastsInDim ⟨2, ![1, c]⟩ ![1]) (u : Fin 1) (k : Fin c) :
    broadcastInDim ⟨2, ![1, c]⟩ ![1] h1 v (ix2 u k) = v (ix1 k) :=
  broadcastInDim_apply _ h1 v _ _ (fun a => by
    match a with
    | ⟨0, _⟩ =>
      show k.val = if c = 1 then 0 else k.val
      split
      · have := k.isLt; omega
      · rfl)

/-- A row [1,c] repeated over n rows reads the row at the column's number. -/
theorem repeatRows_apply {n c : ℕ} (r : (⟨2, ![1, c]⟩ : Shape).Idx → α)
    (h2 : (⟨2, ![1, c]⟩ : Shape).BroadcastsInDim ⟨2, ![n, c]⟩ ![0, 1]) (i : Fin n) (k : Fin c) :
    broadcastInDim ⟨2, ![n, c]⟩ ![0, 1] h2 r (ix2 i k) = r (ix2 (0 : Fin 1) k) :=
  broadcastInDim_apply _ h2 r _ _ (fun a => by
    match a with
    | ⟨0, _⟩ => rfl
    | ⟨1, _⟩ =>
      show k.val = if c = 1 then 0 else k.val
      split
      · have := k.isLt; omega
      · rfl)

/-- A length-c vector laid out as a row and repeated over n rows reads the vector at the column's number. -/
theorem rowRepeat_apply {n c : ℕ} (v : (⟨1, ![c]⟩ : Shape).Idx → α)
    (h1 : (⟨1, ![c]⟩ : Shape).BroadcastsInDim ⟨2, ![1, c]⟩ ![1])
    (h2 : (⟨2, ![1, c]⟩ : Shape).BroadcastsInDim ⟨2, ![n, c]⟩ ![0, 1]) (i : Fin n) (k : Fin c) :
    broadcastInDim ⟨2, ![n, c]⟩ ![0, 1] h2 (broadcastInDim ⟨2, ![1, c]⟩ ![1] h1 v) (ix2 i k) = v (ix1 k) := by
  rw [repeatRows_apply, rowOf_apply]

/-- A vector stood up as a column [n,1] by a broadcast along axis 0 reads the vector at the row's number. -/
theorem colOf_apply {n : ℕ} (v : (⟨1, ![n]⟩ : Shape).Idx → α)
    (h : (⟨1, ![n]⟩ : Shape).BroadcastsInDim ⟨2, ![n, 1]⟩ ![0]) (i : Fin n) (u : Fin 1) :
    broadcastInDim ⟨2, ![n, 1]⟩ ![0] h v (ix2 i u) = v (ix1 i) :=
  broadcastInDim_apply _ h v _ _ (fun a => by
    match a with
    | ⟨0, _⟩ =>
      show i.val = if n = 1 then 0 else i.val
      split
      · have := i.isLt; omega
      · rfl)

end Cert.LibColumn

end
-- ==== Proof.LibGcnHost.lean ====
/-
  A host program's spellings of the layers of a graph convolution network, as whole arrays on the extended reals.

  For any extents:
  * the host's product of a feature matrix with a weight matrix is GcnSpec's mm;
  * a bias vector cast to a one-row array, read along the row, is the vector (rowAt_cast);
  * the host's rectified dense layer with a bias VECTOR laid out as a row and repeated over the rows is the rectified
    dense layer with the bias cast to a row (hostEmbed);
  * a vector stood up as a column by a cast is the vector stood up by a broadcast along axis 0 (colCast_eq_bcast);
  * the host's combine — (agg + h · s) + b, rectified, with the per-node weights s a VECTOR stood up as a column and
    repeated over the columns, the bias a vector laid out as a row and repeated over the rows — is GcnSpec's combine of
    agg, the rows of h scaled by s cast to a column, and b cast to a row (hostCombine).
  No entry is asked to be finite: each identity holds entry by entry by reading the layout operations at coordinates.
-/
import proofs.«162392_j16415365005924_1_alg».proof.Proof.GcnSpec
import proofs.«162392_j16415365005924_1_alg».proof.Proof.LibHostLayer
import proofs.«162392_j16415365005924_1_alg».proof.Proof.LibGcnLayer
import proofs.«162392_j16415365005924_1_alg».proof.Proof.LibColumn

noncomputable section

namespace Cert.LibGcnHost

open Idealize.ShloMosaic Idealize.ShloMosaic.ValueIdx Cert.LibLayers Cert.LibBlockLayer Cert.LibHostLayer Cert.GcnSpec
open scoped BigOperators

/-- The host's product is the plain product. -/
theorem hostMm {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂) :
    Host.dotGeneral d prec l W = mm l W := by
  funext j
  obtain ⟨p, q, rfl⟩ : ∃ (p : Fin M) (q : Fin N), j = ix2 p q := ⟨j 0, j 1, eq_ix2 j⟩
  rw [Cert.LibHostDense.hostDot_plain_apply d hlc hrc hlb hrb hln hrn]
  rfl

/-- A vector cast to a one-row array, read along the row, is the vector. -/
theorem rowAt_cast {N : ℕ} (b : FVec Ideal ⟨1, ![N]⟩ .f32) (h : (⟨1, ![N]⟩ : Shape).ShapeCasts ⟨2, ![1, N]⟩) :
    rowAt (shapeCast (⟨2, ![1, N]⟩ : Shape) b h) = vecAt b :=
  funext fun q => Cert.LibGcnLayer.castRow_apply b h q

/-- The host's rectified dense layer over a bias vector is the rectified dense layer over the bias cast to a row. -/
theorem hostEmbed {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2))
    (hc : (⟨1, ![N]⟩ : Shape).ShapeCasts ⟨2, ![1, N]⟩) :
    maximumf (addf (Host.dotGeneral d prec l W)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 0x00000000#32))
      = relu (dense l W (rowAt (shapeCast (⟨2, ![1, N]⟩ : Shape) b hc))) := by
  rw [hostLayer_relu d hlc hrc hlb hrb hln hrn, rowAt_cast]

/-- A vector stood up as a column by a cast is the vector stood up by a broadcast along axis 0. -/
theorem colCast_eq_bcast {α : Type} {n : ℕ} (v : (⟨1, ![n]⟩ : Shape).Idx → α)
    (hc : (⟨1, ![n]⟩ : Shape).ShapeCasts ⟨2, ![n, 1]⟩)
    (hb : (⟨1, ![n]⟩ : Shape).BroadcastsInDim ⟨2, ![n, 1]⟩ (![0] : Fin 1 → Fin 2)) :
    shapeCast (⟨2, ![n, 1]⟩ : Shape) v hc = broadcastInDim ⟨2, ![n, 1]⟩ ![0] hb v := by
  funext j
  obtain ⟨p, u, rfl⟩ : ∃ (p : Fin n) (u : Fin 1), j = ix2 p u := ⟨j 0, j 1, eq_ix2 j⟩
  rw [Cert.LibColumn.shapeCast_a_a1_apply, Cert.LibColumn.colOf_apply]

/-- The host's combine is the combine of the aggregate, the rows scaled by the weights cast to a column, and the bias
    cast to a row. -/
theorem hostCombine {n c : ℕ} (agg h : FVec Ideal ⟨2, ![n, c]⟩ .f32) (s : FVec Ideal ⟨1, ![n]⟩ .f32) (b : FVec Ideal ⟨1, ![c]⟩ .f32)
    (hcs : (⟨1, ![n]⟩ : Shape).ShapeCasts ⟨2, ![n, 1]⟩) (hcb : (⟨1, ![c]⟩ : Shape).ShapeCasts ⟨2, ![1, c]⟩)
    (hcol : (⟨1, ![n]⟩ : Shape).BroadcastsInDim ⟨2, ![n, 1]⟩ (![0] : Fin 1 → Fin 2))
    (hcols : (⟨2, ![n, 1]⟩ : Shape).BroadcastsInDim ⟨2, ![n, c]⟩ (![0, 1] : Fin 2 → Fin 2))
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2))
    (h0 : (⟨0, ![]⟩ : Shape).BroadcastsInDim ⟨2, ![n, c]⟩ (![] : Fin 0 → Fin 2)) :
    maximumf (addf (addf agg (mulf h (broadcastInDim ⟨2, ![n, c]⟩ ![0, 1] hcols (broadcastInDim ⟨2, ![n, 1]⟩ ![0] hcol s))))
        (broadcastInDim ⟨2, ![n, c]⟩ ![0, 1] h2 (broadcastInDim ⟨2, ![1, c]⟩ ![1] h1 b)))
      (broadcastInDim ⟨2, ![n, c]⟩ ![] h0 (constant (F := Ideal) ⟨0, ![]⟩ .f32 0x00000000#32))
      = combine agg (scaleRows h (shapeCast (⟨2, ![n, 1]⟩ : Shape) s hcs)) (shapeCast (⟨2, ![1, c]⟩ : Shape) b hcb) := by
  funext j
  obtain ⟨p, q, rfl⟩ : ∃ (p : Fin n) (q : Fin c), j = ix2 p q := ⟨j 0, j 1, eq_ix2 j⟩
  rw [maximumf_apply, addf_apply, addf_apply, mulf_apply, Cert.LibGcnLayer.bcastCols_apply, Cert.LibGcnLayer.bcastCol_apply,
    Cert.LibGcnLayer.bcastRowRows_apply, Cert.LibHostDense.bcastScalar_apply, constant_apply]
  show _ = max ((agg (ix2 p q) + h (ix2 p q) * shapeCast (⟨2, ![n, 1]⟩ : Shape) s hcs (ix2 p (0 : Fin 1)))
    + shapeCast (⟨2, ![1, c]⟩ : Shape) b hcb (ix2 (0 : Fin 1) q)) (Ideal.ofBits .f32 0x00000000#32)
  rw [Cert.LibColumn.shapeCast_a_a1_apply, Cert.LibGcnLayer.castRow_apply]

end Cert.LibGcnHost

end
-- ==== Proof.RefStages.lean ====
/-
  The reference program, stage by stage, as the network's layers.

  The reference computes, on the host: the rectified embedding h0 = relu (x · Wf + bf); twice a graph convolution
  h' = relu ((agg + h·W · s) + b), where h·W is the projected features, s the self-loop weight of each node
  (the squared inverse root degree), and agg the aggregated messages — the rows of h·W gathered along the edges'
  sources, scaled by the edges' weights, and scatter-added onto the edges' targets —; and the mean pool over the graphs.
  The gathers, scatter-adds and the pool are kept as the functions the host applies (agg, pool below): the kernel
  program applies the same operations. The dense parts are rewritten as the layer functions of GcnSpec, with the
  per-node weights and the biases read through casts to a column and to a row, which is how the kernel program lays
  them out: a cast of a vector to a column equals its broadcast along axis 0, and a vector cast to a row and read along
  the row is the vector. The result is one function net of the nine arguments.
-/
import proofs.«162392_j16415365005924_1_alg».proof.Proof.Gen.ReferenceIdeal.Read
import proofs.«162392_j16415365005924_1_alg».proof.Proof.LibGcnHost

set_option maxRecDepth 16384

noncomputable section

namespace Cert.ReferenceIdeal.Net

open Cert.ReferenceIdeal Cert.ReferenceIdeal.Gen Cert.ReferenceIdeal.Read Idealize.ShloMosaic Idealize.ShloMosaic.TcCoe
open Idealize.ShloMosaic.ValueIdx Cert.LibLayers Cert.LibBlockLayer Cert.GcnSpec Cert.LibGcnHost

variable (x0 : (⟨S250000x1, .f32⟩ : BufTy).Contents (Elt Ideal)) (x1 : (⟨S2x4000000, .i32⟩ : BufTy).Contents (Elt Ideal)) (x2 : (⟨S250000, .i32⟩ : BufTy).Contents (Elt Ideal))
  (x3 : (⟨S1x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal))
  (x7 : (⟨S64x64, .f32⟩ : BufTy).Contents (Elt Ideal)) (x8 : (⟨S64, .f32⟩ : BufTy).Contents (Elt Ideal))
variable (hcE : (S4000000 : Shape).ShapeCasts S4000000x1) (hcN : (S250000 : Shape).ShapeCasts S250000x1) (hcB : (S64 : Shape).ShapeCasts S1x64)

/-- The aggregated messages, as the host computes them from the projected features h and the column of edge weights:
    rows of h gathered at the edges' sources, scaled, scatter-added onto the edges' targets. -/
def agg (h : FVec Ideal S250000x64 .f32) (col : FVec Ideal S4000000x1 .f32) : FVec Ideal S250000x64 .f32 :=
  Host.scatterAdd (F := Ideal) scatter_S250000x64_S4000000x1_S4000000x64_1_0_0_1 (val_main_v42 (F := Ideal)) (val_main_v43 (F := Ideal) x1)
    (mulf (Host.gather gather_S250000x64_S4000000x1_S4000000x64_1_0_n_n_0_1_164 h (val_main_v37 (F := Ideal) x1))
      (broadcastInDim S4000000x64 ![0, 1] bcast_S4000000x1_S4000000x64_0_1 col))

/-- The mean pool over the graphs, as the host computes it from the node features. -/
def pool (h : FVec Ideal S250000x64 .f32) : FVec Ideal S512x64 .f32 :=
  Host.divf (Host.scatterAdd (F := Ideal) scatter_S512x64_S250000x1_S250000x64_1_0_0_1 (val_main_v99 (F := Ideal)) (val_main_v100 (F := Ideal) x2) h)
    (val_main_v109 (F := Ideal) x2)

/-- The column of edge weights and the column of self-loop weights, as casts of the host's vectors. -/
abbrev edgeCol : FVec Ideal S4000000x1 .f32 := shapeCast S4000000x1 (val_main_v31 (F := Ideal) x1) hcE
abbrev selfCol : FVec Ideal S250000x1 .f32 := shapeCast S250000x1 (val_main_v45 (F := Ideal) x1) hcN

/-- The whole network as one function of the arguments. -/
def net : FVec Ideal S512x64 .f32 :=
  pool x2 (combine
    (agg x1 (mm (combine (agg x1 (mm (relu (dense x0 x3 (rowAt (shapeCast S1x64 x4 hcB)))) x5) (edgeCol x1 hcE))
        (scaleRows (mm (relu (dense x0 x3 (rowAt (shapeCast S1x64 x4 hcB)))) x5) (selfCol x1 hcN)) (shapeCast S1x64 x6 hcB)) x7) (edgeCol x1 hcE))
    (scaleRows (mm (combine (agg x1 (mm (relu (dense x0 x3 (rowAt (shapeCast S1x64 x4 hcB)))) x5) (edgeCol x1 hcE))
        (scaleRows (mm (relu (dense x0 x3 (rowAt (shapeCast S1x64 x4 hcB)))) x5) (selfCol x1 hcN)) (shapeCast S1x64 x6 hcB)) x7) (selfCol x1 hcN))
    (shapeCast S1x64 x8 hcB))

/-- The embedding. -/
theorem h0_eq : val_main_v8 (F := Ideal) x0 x3 x4 = relu (dense x0 x3 (rowAt (shapeCast S1x64 x4 hcB))) := by
  unfold val_main_v8 val_main_v7 val_main_v4 val_main_v6 val_main_v5 val_main_call0_v0 val_main_call0_cst
  exact hostEmbed dot_S250000x1_S1x64_S250000x64_1_0_0_1_n_n rfl rfl rfl rfl rfl rfl none x0 x3 x4 _ _ _ hcB

/-- The first layer's projected features. -/
theorem ht1_eq : val_main_v9 (F := Ideal) x0 x3 x4 x5 = mm (val_main_v8 (F := Ideal) x0 x3 x4) x5 := by
  unfold val_main_v9
  exact hostMm dot_S250000x64_S64x64_S250000x64_1_0_0_1_n_n rfl rfl rfl rfl rfl rfl none _ x5

/-- The column of edge weights the first layer repeats over the features. -/
theorem col1_eq : val_main_v39 (F := Ideal) x1 = edgeCol x1 hcE := by
  unfold val_main_v39
  exact (colCast_eq_bcast (val_main_v31 (F := Ideal) x1) hcE bcast_S4000000_S4000000x1_0).symm

/-- The first layer's aggregated messages. -/
theorem agg1_eq : val_main_v44 (F := Ideal) x0 x1 x3 x4 x5 = agg x1 (val_main_v9 (F := Ideal) x0 x3 x4 x5) (val_main_v39 (F := Ideal) x1) := rfl

/-- The first layer's output. -/
theorem h1_eq : val_main_v53 (F := Ideal) x0 x1 x3 x4 x5 x6
    = combine (val_main_v44 (F := Ideal) x0 x1 x3 x4 x5) (scaleRows (val_main_v9 (F := Ideal) x0 x3 x4 x5) (selfCol x1 hcN)) (shapeCast S1x64 x6 hcB) := by
  unfold val_main_v53 val_main_v52 val_main_v49 val_main_v48 val_main_v47 val_main_v46 val_main_v51 val_main_v50 val_main_call1_v0 val_main_call1_cst
  exact hostCombine (val_main_v44 (F := Ideal) x0 x1 x3 x4 x5) (val_main_v9 (F := Ideal) x0 x3 x4 x5) (val_main_v45 (F := Ideal) x1) x6 hcN hcB _ _ _ _ _

/-- The second layer's projected features. -/
theorem ht2_eq : val_main_v54 (F := Ideal) x0 x1 x3 x4 x5 x6 x7 = mm (val_main_v53 (F := Ideal) x0 x1 x3 x4 x5 x6) x7 := by
  unfold val_main_v54
  exact hostMm dot_S250000x64_S64x64_S250000x64_1_0_0_1_n_n rfl rfl rfl rfl rfl rfl none _ x7

/-- The column of edge weights the second layer repeats over the features: the reference computes the weights a second
    time, by the same operations. -/
theorem col2_eq : val_main_v84 (F := Ideal) x1 = edgeCol x1 hcE := by
  unfold val_main_v84
  show broadcastInDim S4000000x1 ![0] bcast_S4000000_S4000000x1_0 (val_main_v31 (F := Ideal) x1) = _
  exact (colCast_eq_bcast (val_main_v31 (F := Ideal) x1) hcE bcast_S4000000_S4000000x1_0).symm

/-- The second layer's aggregated messages. -/
theorem agg2_eq : val_main_v89 (F := Ideal) x0 x1 x3 x4 x5 x6 x7
    = agg x1 (val_main_v54 (F := Ideal) x0 x1 x3 x4 x5 x6 x7) (val_main_v84 (F := Ideal) x1) := rfl

/-- The second layer's output. -/
theorem h2_eq : val_main_v98 (F := Ideal) x0 x1 x3 x4 x5 x6 x7 x8
    = combine (val_main_v89 (F := Ideal) x0 x1 x3 x4 x5 x6 x7)
        (scaleRows (val_main_v54 (F := Ideal) x0 x1 x3 x4 x5 x6 x7) (shapeCast S250000x1 (val_main_v90 (F := Ideal) x1) hcN)) (shapeCast S1x64 x8 hcB) := by
  unfold val_main_v98 val_main_v97 val_main_v94 val_main_v93 val_main_v92 val_main_v91 val_main_v96 val_main_v95 val_main_call2_v0 val_main_call2_cst
  exact hostCombine (val_main_v89 (F := Ideal) x0 x1 x3 x4 x5 x6 x7) (val_main_v54 (F := Ideal) x0 x1 x3 x4 x5 x6 x7) (val_main_v90 (F := Ideal) x1) x8 hcN hcB _ _ _ _ _

/-- The self-loop weights the second layer uses: the reference computes them a second time, by the same operations. -/
theorem self2_eq : val_main_v90 (F := Ideal) x1 = val_main_v45 (F := Ideal) x1 := rfl

/-- The pool of the second layer's output is the result. -/
theorem out_eq : val_main_v110 (F := Ideal) x0 x1 x2 x3 x4 x5 x6 x7 x8 = pool x2 (val_main_v98 (F := Ideal) x0 x1 x3 x4 x5 x6 x7 x8) := rfl

/-- The reference's result is the network of its arguments. -/
theorem ref_eq_net : val_main_v110 (F := Ideal) x0 x1 x2 x3 x4 x5 x6 x7 x8 = net x0 x1 x2 x3 x4 x5 x6 x7 x8 hcE hcN hcB := by
  rw [out_eq, h2_eq x0 x1 x3 x4 x5 x6 x7 x8 hcN hcB, self2_eq, agg2_eq, col2_eq x1 hcE, ht2_eq, h1_eq x0 x1 x3 x4 x5 x6 hcN hcB, agg1_eq,
    col1_eq x1 hcE, ht1_eq, h0_eq x0 x3 x4 hcB]
  rfl

end Cert.ReferenceIdeal.Net

end
-- ==== Proof.KEntry.lean ====
/-
  What the first stretch of host operations leaves in the buffers the network reads.

  Before the first kernel call the host cuts the edge list into its sources and targets, counts each node's incoming edges
  into its degree, takes the inverse root, gathers it at both ends of every edge and multiplies (the edge weights),
  squares it (the self-loop weights), and casts the weight vectors to columns and the three bias vectors to rows. These
  are the same operations the reference applies, so each buffer is stated as the reference's own stage of the edge list
  (val_main_v1, v3: sources and targets; val_main_v31: edge weights; val_main_v45: self-loop weights), cast where the
  kernel program casts. The argument arrays are untouched.
-/
import proofs.«162392_j16415365005924_1_alg».proof.Proof.Gen.KernelIdeal.Frame
import proofs.«162392_j16415365005924_1_alg».proof.Proof.Gen.ReferenceIdeal.Read
import proofs.«162392_j16415365005924_1_alg».proof.Proof.RefStages
import Idealize.ShloMosaic.Lib.StableHlo.Run

set_option maxRecDepth 16384
set_option maxHeartbeats 1000000

noncomputable section

namespace Cert.KernelIdeal.Net

open Cert.KernelIdeal Cert.KernelIdeal.Gen Idealize.ShloMosaic Idealize.ShloMosaic.TcCoe Idealize.SL.Sem Idealize.ShloMosaic.StableHlo
open Idealize.ShloMosaic.ValueIdx Cert.LibLayers Cert.LibBlockLayer Cert.GcnSpec
open Cert.ReferenceIdeal.Read (val_main_v1 val_main_v3 val_main_v31 val_main_v45)
open Cert.ReferenceIdeal.Net (agg pool net edgeCol selfCol)

variable (m : (ℓ : Loc nD τ sig) → Buf (Elt Ideal) ℓ) (ρ : Dev nD → PrngReg)

/-- The argument arrays at launch, on device c. -/
abbrev X0 (c : Dev nD) := m ((c : Thread nD τ).loc main_arg0)
abbrev X1 (c : Dev nD) := m ((c : Thread nD τ).loc main_arg1)
abbrev X2 (c : Dev nD) := m ((c : Thread nD τ).loc main_arg2)
abbrev X3 (c : Dev nD) := m ((c : Thread nD τ).loc main_arg3)
abbrev X4 (c : Dev nD) := m ((c : Thread nD τ).loc main_arg4)
abbrev X5 (c : Dev nD) := m ((c : Thread nD τ).loc main_arg5)
abbrev X6 (c : Dev nD) := m ((c : Thread nD τ).loc main_arg6)
abbrev X7 (c : Dev nD) := m ((c : Thread nD τ).loc main_arg7)
abbrev X8 (c : Dev nD) := m ((c : Thread nD τ).loc main_arg8)

/-- Argument 0 is as launched. -/
theorem W1_arg0 (c : Dev nD) : W1 m ρ c (Proc.devRef .tc main_arg0) = X0 m c := by
  show StableHlo.after hostOps0 (W0 m ρ c) (Proc.devRef .tc main_arg0) = _
  dsimp only [hostOps0]
  after_results_simp <;> rfl

/-- Argument 2 is as launched. -/
theorem W1_arg2 (c : Dev nD) : W1 m ρ c (Proc.devRef .tc main_arg2) = X2 m c := by
  show StableHlo.after hostOps0 (W0 m ρ c) (Proc.devRef .tc main_arg2) = _
  dsimp only [hostOps0]
  after_results_simp <;> rfl

/-- Argument 3 is as launched. -/
theorem W1_arg3 (c : Dev nD) : W1 m ρ c (Proc.devRef .tc main_arg3) = X3 m c := by
  show StableHlo.after hostOps0 (W0 m ρ c) (Proc.devRef .tc main_arg3) = _
  dsimp only [hostOps0]
  after_results_simp <;> rfl

/-- Argument 5 is as launched. -/
theorem W1_arg5 (c : Dev nD) : W1 m ρ c (Proc.devRef .tc main_arg5) = X5 m c := by
  show StableHlo.after hostOps0 (W0 m ρ c) (Proc.devRef .tc main_arg5) = _
  dsimp only [hostOps0]
  after_results_simp <;> rfl

/-- Argument 7 is as launched. -/
theorem W1_arg7 (c : Dev nD) : W1 m ρ c (Proc.devRef .tc main_arg7) = X7 m c := by
  show StableHlo.after hostOps0 (W0 m ρ c) (Proc.devRef .tc main_arg7) = _
  dsimp only [hostOps0]
  after_results_simp <;> rfl

/-- The edges' sources. -/
theorem W1_v1 (c : Dev nD) : W1 m ρ c (Proc.devRef .tc main_v1) = val_main_v1 (F := Ideal) (X1 m c) := by
  show StableHlo.after hostOps0 (W0 m ρ c) (Proc.devRef .tc main_v1) = _
  dsimp only [hostOps0]
  after_results_simp <;> rfl

/-- The edges' targets. -/
theorem W1_v3 (c : Dev nD) : W1 m ρ c (Proc.devRef .tc main_v3) = val_main_v3 (F := Ideal) (X1 m c) := by
  show StableHlo.after hostOps0 (W0 m ρ c) (Proc.devRef .tc main_v3) = _
  dsimp only [hostOps0]
  after_results_simp <;> rfl

/-- The column of edge weights. -/
theorem W1_v26 (c : Dev nD) : W1 m ρ c (Proc.devRef .tc main_v26) = edgeCol (X1 m c) shapeCasts_S4000000_S4000000x1 := by
  show StableHlo.after hostOps0 (W0 m ρ c) (Proc.devRef .tc main_v26) = _
  dsimp only [hostOps0]
  after_results_simp <;> rfl

/-- The column of self-loop weights. -/
theorem W1_v28 (c : Dev nD) : W1 m ρ c (Proc.devRef .tc main_v28) = selfCol (X1 m c) shapeCasts_S250000_S250000x1 := by
  show StableHlo.after hostOps0 (W0 m ρ c) (Proc.devRef .tc main_v28) = _
  dsimp only [hostOps0]
  after_results_simp <;> rfl

/-- The embedding's bias as a row. -/
theorem W1_v29 (c : Dev nD) : W1 m ρ c (Proc.devRef .tc main_v29) = shapeCast S1x64 (X4 m c) shapeCasts_S64_S1x64 := by
  show StableHlo.after hostOps0 (W0 m ρ c) (Proc.devRef .tc main_v29) = _
  dsimp only [hostOps0]
  after_results_simp <;> rfl

/-- The first layer's bias as a row. -/
theorem W1_v30 (c : Dev nD) : W1 m ρ c (Proc.devRef .tc main_v30) = shapeCast S1x64 (X6 m c) shapeCasts_S64_S1x64 := by
  show StableHlo.after hostOps0 (W0 m ρ c) (Proc.devRef .tc main_v30) = _
  dsimp only [hostOps0]
  after_results_simp <;> rfl

/-- The second layer's bias as a row. -/
theorem W1_v31 (c : Dev nD) : W1 m ρ c (Proc.devRef .tc main_v31) = shapeCast S1x64 (X8 m c) shapeCasts_S64_S1x64 := by
  show StableHlo.after hostOps0 (W0 m ρ c) (Proc.devRef .tc main_v31) = _
  dsimp only [hostOps0]
  after_results_simp <;> rfl

end Cert.KernelIdeal.Net

end
-- ==== Proof.KBlocks0.lean ====
/-
  The embedding call, from blocks to the whole array.

  The call runs over 50 grid points. Point t reads rows 5000·t … 5000·t + 4999 of the node features x (one column), the
  whole 1 × 64 weight matrix and the whole bias row, and writes rows 5000·t … 5000·t + 4999 of the result: the rectified
  dense layer of its blocks. The layer is row-local, so what point t writes is block t of the rectified dense layer of
  the whole arrays; the 50 blocks cover the 250000 rows, so the result array ends holding that layer.
-/
import proofs.«162392_j16415365005924_1_alg».proof.Proof.Gen.KernelIdeal.Frame
import proofs.«162392_j16415365005924_1_alg».proof.Proof.GcnSpec
import Idealize.ShloMosaic.Lib.Pipeline.Value

set_option maxRecDepth 16384

noncomputable section

namespace Cert.KernelIdeal.Net

open Cert.KernelIdeal Cert.KernelIdeal.Gen Idealize.ShloMosaic Idealize.ShloMosaic.TcCoe Idealize.SL.Sem
open Idealize.ShloMosaic.ValueIdx Cert.LibLayers Cert.LibBlockLayer Cert.GcnSpec
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The body's arithmetic is the rectified dense layer of its blocks. -/
theorem pay0 (x0 : Vec Ideal S5000x1 .f32) (x1 : Vec Ideal S1x64 .f32) (x2 : Vec Ideal S1x64 .f32) :
    k0_pay1 x0 x1 x2 = relu (dense x0 x1 (rowAt x2)) := by
  unfold k0_pay1
  exact embedBody dot_S5000x1_S1x64_S5000x64_1_0_0_1_n_n rfl rfl rfl rfl rfl rfl none x0 x1 x2 _ _ _ _

/-- The index maps over the grid: the node-indexed windows move with the point, the weights and the bias stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Window 0's block at point t is rows 5000·t … of x. -/
theorem blk0_0 (c : Dev nD) (t : Fin cfg0.N) (y : S5000x1.Idx) (i : S250000x1.Idx)
    (h0 : (i 0).val = t.val * 5000 + (y 0).val) (h1 : (i 1).val = (y 1).val) :
    (iblk0 V c 0 t : Vec Ideal S5000x1 .f32) y = (V c main_arg0 : S250000x1.Idx → EReal) i := by
  obtain ⟨e0, e1, -⟩ := idx0 t
  unfold iblk0
  rw [View.read_apply]
  show V c main_arg0 _ = V c main_arg0 _
  refine congrArg (V c main_arg0) (funext fun a => Fin.ext ?_)
  match a with
  | ⟨0, _⟩ => show win0_0.index t 0 * 5000 + 1 * (y 0).val = (i 0).val; rw [e0, h0]; omega
  | ⟨1, _⟩ => show win0_0.index t 1 * 1 + 1 * (y 1).val = (i 1).val; rw [e1, h1]; omega

/-- Window 1's block is the whole weight matrix. -/
theorem blk0_1 (c : Dev nD) (t : Fin cfg0.N) (y : S1x64.Idx) :
    (iblk0 V c 1 t : Vec Ideal S1x64 .f32) y = (V c main_arg3 : S1x64.Idx → EReal) y := by
  obtain ⟨-, -, e2, e3, -⟩ := idx0 t
  unfold iblk0
  rw [View.read_apply]
  show V c main_arg3 _ = V c main_arg3 _
  refine congrArg (V c main_arg3) (funext fun a => Fin.ext ?_)
  match a with
  | ⟨0, _⟩ => show win0_1.index t 0 * 1 + 1 * (y 0).val = (y 0).val; rw [e2]; omega
  | ⟨1, _⟩ => show win0_1.index t 1 * 64 + 1 * (y 1).val = (y 1).val; rw [e3]; omega

/-- Window 2's block is the whole bias row. -/
theorem blk0_2 (c : Dev nD) (t : Fin cfg0.N) (y : S1x64.Idx) :
    (iblk0 V c 2 t : Vec Ideal S1x64 .f32) y = (V c main_v29 : S1x64.Idx → EReal) y := by
  obtain ⟨-, -, -, -, e4, e5, -⟩ := idx0 t
  unfold iblk0
  rw [View.read_apply]
  show V c main_v29 _ = V c main_v29 _
  refine congrArg (V c main_v29) (funext fun a => Fin.ext ?_)
  match a with
  | ⟨0, _⟩ => show win0_2.index t 0 * 1 + 1 * (y 0).val = (y 0).val; rw [e4]; omega
  | ⟨1, _⟩ => show win0_2.index t 1 * 64 + 1 * (y 1).val = (y 1).val; rw [e5]; omega

/-- What point t writes back is block t of the rectified dense layer of the arrays the call finds. -/
theorem flushed0_3_eq (c : Dev nD) (t : Fin cfg0.N) :
    (dat0 V c).flushed 3 t = ((cfg0.win 3).blk t).view.read (Elt Ideal)
      (relu (dense (V c main_arg0 : S250000x1.Idx → EReal) (V c main_arg3 : S1x64.Idx → EReal) (rowAt (V c main_v29 : S1x64.Idx → EReal)))) := by
  show (cfg0.win 3).cut (grid0.coords t) ((dat0 V c).after 3 t) = _
  rw [after0_3]
  unfold out0_3
  rw [View.canon_unit_zero hz0]
  simp only [View.ld_unit_zero (S := S5000x1) hz0, View.ld_unit_zero (S := S1x64) hz0]
  rw [pay0]
  obtain ⟨-, -, -, -, -, -, e6, e7⟩ := idx0 t
  funext j
  show relu (dense (iblk0 V c 0 t : Vec Ideal S5000x1 .f32) (iblk0 V c 1 t : Vec Ideal S1x64 .f32) (rowAt (iblk0 V c 2 t : Vec Ideal S1x64 .f32))) j
    = relu (dense (V c main_arg0 : S250000x1.Idx → EReal) (V c main_arg3 : S1x64.Idx → EReal) (rowAt (V c main_v29 : S1x64.Idx → EReal))) (((cfg0.win 3).blk t).view.emb j)
  have hy0 : ((((cfg0.win 3).blk t).view.emb j) 0).val = t.val * 5000 + (j 0).val := by
    show win0_3.index t 0 * 5000 + 1 * (j 0).val = _; rw [e6]; omega
  have hy1 : ((((cfg0.win 3).blk t).view.emb j) 1).val = (j 1).val := by
    show win0_3.index t 1 * 64 + 1 * (j 1).val = _; rw [e7]; omega
  refine (relu_tile _ _ (((cfg0.win 3).blk t).view.emb j) j ?_).symm
  refine dense_tile (iblk0 V c 0 t : Vec Ideal S5000x1 .f32) (iblk0 V c 1 t : Vec Ideal S1x64 .f32) (iblk0 V c 2 t : Vec Ideal S1x64 .f32)
    (V c main_arg0 : S250000x1.Idx → EReal) (V c main_arg3 : S1x64.Idx → EReal) (V c main_v29 : S1x64.Idx → EReal)
    (((cfg0.win 3).blk t).view.emb j) j (fun k => ?_) (fun k => ?_) ?_
  · exact (blk0_0 V c t _ _ hy0 rfl).symm
  · rw [blk0_1]; exact congrArg _ (funext fun a => Fin.ext (by match a with | ⟨0, _⟩ => rfl | ⟨1, _⟩ => exact hy1))
  · rw [blk0_2]; exact congrArg _ (funext fun a => Fin.ext (by match a with | ⟨0, _⟩ => rfl | ⟨1, _⟩ => exact hy1))

/-- An index of the result array is in point t's block iff each coordinate is in the block's range. -/
theorem mem_blk0_3 (t : Fin cfg0.N) (i : S250000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v32).slice (win0_3.rect t)).set ↔ _
  rw [View.set_slice_whole, Rect.mem_set_unit]
  exact Iff.rfl

/-- Row r of the result is written by point r / 5000. -/
theorem covered0_3 (i : S250000x64.Idx) : ∃ t : Fin cfg0.N, (cfg0.win 3).flush t = true ∧ i ∈ ((cfg0.win 3).blk t).view.set := by
  have hi0 : (i 0).val < 250000 := (i 0).isLt
  have hi1 : (i 1).val < 64 := (i 1).isLt
  have hN : cfg0.N = 50 := N_0
  have ht : (i 0).val / 5000 < cfg0.N := by rw [hN]; omega
  obtain ⟨-, -, -, -, -, -, e6, e7⟩ := idx0 ⟨(i 0).val / 5000, ht⟩
  refine ⟨⟨(i 0).val / 5000, ht⟩, flush0_3 _, ?_⟩
  rw [mem_blk0_3]
  intro a
  match a with
  | ⟨0, _⟩ =>
    show win0_3.index ⟨(i 0).val / 5000, ht⟩ 0 * 5000 ≤ (i 0).val ∧ (i 0).val < win0_3.index ⟨(i 0).val / 5000, ht⟩ 0 * 5000 + 5000
    rw [e6]; show (i 0).val / 5000 * 5000 ≤ (i 0).val ∧ (i 0).val < (i 0).val / 5000 * 5000 + 5000; omega
  | ⟨1, _⟩ =>
    show win0_3.index ⟨(i 0).val / 5000, ht⟩ 1 * 64 ≤ (i 1).val ∧ (i 1).val < win0_3.index ⟨(i 0).val / 5000, ht⟩ 1 * 64 + 64
    rw [e7]; omega

/-- The embedding call leaves the rectified dense layer of the arrays it finds. -/
theorem final0_3 (c : Dev nD) :
    (dat0 V c).arrAt 3 cfg0.N
      = relu (dense (V c main_arg0 : S250000x1.Idx → EReal) (V c main_arg3 : S1x64.Idx → EReal) (rowAt (V c main_v29 : S1x64.Idx → EReal))) :=
  (dat0 V c).arrAt_eq_of_cover 3 _ (fun t _ => flushed0_3_eq V c t) covered0_3

end Cert.KernelIdeal.Net

end
-- ==== Proof.KBlocks1.lean ====
/-
  The first layer's product call, from blocks to the whole arrays.

  Point t of 50 reads rows 5000·t … 5000·t + 4999 of the node features h and of the column of self-loop weights, and the
  whole 64 × 64 weight matrix; it writes the same rows of two results: the product h · W, and the product with every row
  scaled by its node's self-loop weight. Both are row-local, so what point t writes is block t of the function of the
  whole arrays, and the 50 blocks cover the 250000 rows.
-/
import proofs.«162392_j16415365005924_1_alg».proof.Proof.Gen.KernelIdeal.Frame
import proofs.«162392_j16415365005924_1_alg».proof.Proof.GcnSpec
import Idealize.ShloMosaic.Lib.Pipeline.Value

set_option maxRecDepth 16384

noncomputable section

namespace Cert.KernelIdeal.Net

open Cert.KernelIdeal Cert.KernelIdeal.Gen Idealize.ShloMosaic Idealize.ShloMosaic.TcCoe Idealize.SL.Sem
open Idealize.ShloMosaic.ValueIdx Cert.LibLayers Cert.LibBlockLayer Cert.GcnSpec
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The first store's arithmetic is the product of its blocks. -/
theorem pay1a (v0 : Vec Ideal S5000x64 .f32) (v3 : Vec Ideal S64x64 .f32) : k1_pay1 v0 v3 = mm v0 v3 := by
  unfold k1_pay1
  simp only [shapeCast_self]
  exact mmBody dot_S5000x64_S64x64_S5000x64_1_0_0_1_n_n rfl rfl rfl rfl rfl rfl none v0 v3 _ _

/-- The second store's arithmetic is that product with its rows scaled by the block of weights. -/
theorem pay1b (v0 : Vec Ideal S5000x64 .f32) (v3 : Vec Ideal S64x64 .f32) (v7 : Vec Ideal S5000x1 .f32) :
    k1_pay2 v0 v3 v7 = scaleRows (mm v0 v3) v7 := by
  unfold k1_pay2
  rw [pay1a]
  exact scaleBody (mm v0 v3) v7 _ _

/-- The index maps over the grid: the node-indexed windows move with the point, the others stay. -/
theorem idx1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0
    ∧ win1_4.index t (0 : Fin 2) = t.val
    ∧ win1_4.index t (1 : Fin 2) = 0 :=
  (by decide +kernel : ∀ t : Fin grid1.N, _)

/-- Window 0's block at point t is rows 5000·t … of its array. -/
theorem blk1_0 (c : Dev nD) (t : Fin cfg1.N) (y : S5000x64.Idx) (i : S250000x64.Idx)
    (h0 : (i 0).val = t.val * 5000 + (y 0).val) (h1 : (i 1).val = (y 1).val) :
    (iblk1 V c 0 t : Vec Ideal S5000x64 .f32) y = (V c main_v32 : S250000x64.Idx → EReal) i := by
  obtain ⟨e0a, e0b, -, -, -, -, -, -, -, -⟩ := idx1 t
  unfold iblk1
  rw [View.read_apply]
  show V c main_v32 _ = V c main_v32 _
  refine congrArg (V c main_v32) (funext fun a => Fin.ext ?_)
  match a with
  | ⟨0, _⟩ => show win1_0.index t 0 * 5000 + 1 * (y 0).val = (i 0).val; rw [e0a, h0]; omega
  | ⟨1, _⟩ => show win1_0.index t 1 * 64 + 1 * (y 1).val = (i 1).val; rw [e0b, h1]; omega

/-- Window 1's block is its whole array. -/
theorem blk1_1 (c : Dev nD) (t : Fin cfg1.N) (y : S64x64.Idx) :
    (iblk1 V c 1 t : Vec Ideal S64x64 .f32) y = (V c main_arg5 : S64x64.Idx → EReal) y := by
  obtain ⟨-, -, e1a, e1b, -, -, -, -, -, -⟩ := idx1 t
  unfold iblk1
  rw [View.read_apply]
  show V c main_arg5 _ = V c main_arg5 _
  refine congrArg (V c main_arg5) (funext fun a => Fin.ext ?_)
  match a with
  | ⟨0, _⟩ => show win1_1.index t 0 * 64 + 1 * (y 0).val = (y 0).val; rw [e1a]; omega
  | ⟨1, _⟩ => show win1_1.index t 1 * 64 + 1 * (y 1).val = (y 1).val; rw [e1b]; omega

/-- Window 2's block at point t is rows 5000·t … of its array. -/
theorem blk1_2 (c : Dev nD) (t : Fin cfg1.N) (y : S5000x1.Idx) (i : S250000x1.Idx)
    (h0 : (i 0).val = t.val * 5000 + (y 0).val) (h1 : (i 1).val = (y 1).val) :
    (iblk1 V c 2 t : Vec Ideal S5000x1 .f32) y = (V c main_v28 : S250000x1.Idx → EReal) i := by
  obtain ⟨-, -, -, -, e2a, e2b, -, -, -, -⟩ := idx1 t
  unfold iblk1
  rw [View.read_apply]
  show V c main_v28 _ = V c main_v28 _
  refine congrArg (V c main_v28) (funext fun a => Fin.ext ?_)
  match a with
  | ⟨0, _⟩ => show win1_2.index t 0 * 5000 + 1 * (y 0).val = (i 0).val; rw [e2a, h0]; omega
  | ⟨1, _⟩ => show win1_2.index t 1 * 1 + 1 * (y 1).val = (i 1).val; rw [e2b, h1]; omega

/-- What point t writes back to the product's array is block t of the product of the arrays the call finds. -/
theorem flushed1_3_eq (c : Dev nD) (t : Fin cfg1.N) :
    (dat1 V c).flushed 3 t = ((cfg1.win 3).blk t).view.read (Elt Ideal) (mm (V c main_v32 : S250000x64.Idx → EReal) (V c main_arg5 : S64x64.Idx → EReal)) := by
  show (cfg1.win 3).cut (grid1.coords t) ((dat1 V c).after 3 t) = _
  rw [after1_3]
  unfold out1_3
  rw [View.canon_unit_zero hz1]
  simp only [View.ld_unit_zero (S := S5000x64) hz1, View.ld_unit_zero (S := S64x64) hz1]
  rw [pay1a]
  obtain ⟨-, -, -, -, -, -, e3a, e3b, -, -⟩ := idx1 t
  funext j
  show mm (iblk1 V c 0 t : Vec Ideal S5000x64 .f32) (iblk1 V c 1 t : Vec Ideal S64x64 .f32) j = mm (V c main_v32 : S250000x64.Idx → EReal) (V c main_arg5 : S64x64.Idx → EReal) (((cfg1.win 3).blk t).view.emb j)
  have hy0 : ((((cfg1.win 3).blk t).view.emb j) 0).val = t.val * 5000 + (j 0).val := by
    show win1_3.index t 0 * 5000 + 1 * (j 0).val = _; rw [e3a]; omega
  have hy1 : ((((cfg1.win 3).blk t).view.emb j) 1).val = (j 1).val := by
    show win1_3.index t 1 * 64 + 1 * (j 1).val = _; rw [e3b]; omega
  exact (mm_tile (iblk1 V c 0 t : Vec Ideal S5000x64 .f32) (V c main_v32 : S250000x64.Idx → EReal) (V c main_arg5 : S64x64.Idx → EReal) (iblk1 V c 1 t : Vec Ideal S64x64 .f32)
    (((cfg1.win 3).blk t).view.emb j) j (fun k => (blk1_0 V c t (ix2 (j 0) k) (ix2 ((((cfg1.win 3).blk t).view.emb j) 0) k) hy0 rfl).symm)
    (fun k => by rw [blk1_1]; exact congrArg _ (funext fun a => Fin.ext (by match a with | ⟨0, _⟩ => rfl | ⟨1, _⟩ => exact hy1)))).symm

/-- An index of the array is in point t's block iff each coordinate is in the block's range. -/
theorem mem_blk1_3 (t : Fin cfg1.N) (i : S250000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v33_0).slice (win1_3.rect t)).set ↔ _
  rw [View.set_slice_whole, Rect.mem_set_unit]
  exact Iff.rfl

/-- Row r of the array is written by point r / 5000. -/
theorem covered1_3 (i : S250000x64.Idx) : ∃ t : Fin cfg1.N, (cfg1.win 3).flush t = true ∧ i ∈ ((cfg1.win 3).blk t).view.set := by
  have hi0 : (i 0).val < 250000 := (i 0).isLt
  have hi1 : (i 1).val < 64 := (i 1).isLt
  have hN : cfg1.N = 50 := N_1
  have ht : (i 0).val / 5000 < cfg1.N := by rw [hN]; omega
  obtain ⟨-, -, -, -, -, -, e3a, e3b, -, -⟩ := idx1 ⟨(i 0).val / 5000, ht⟩
  refine ⟨⟨(i 0).val / 5000, ht⟩, flush1_3 _, ?_⟩
  rw [mem_blk1_3]
  intro a
  match a with
  | ⟨0, _⟩ =>
    show win1_3.index ⟨(i 0).val / 5000, ht⟩ 0 * 5000 ≤ (i 0).val ∧ (i 0).val < win1_3.index ⟨(i 0).val / 5000, ht⟩ 0 * 5000 + 5000
    rw [e3a]; show (i 0).val / 5000 * 5000 ≤ (i 0).val ∧ (i 0).val < (i 0).val / 5000 * 5000 + 5000; omega
  | ⟨1, _⟩ =>
    show win1_3.index ⟨(i 0).val / 5000, ht⟩ 1 * 64 ≤ (i 1).val ∧ (i 1).val < win1_3.index ⟨(i 0).val / 5000, ht⟩ 1 * 64 + 64
    rw [e3b]; omega

/-- What point t writes back to the scaled product's array is block t of the scaled product of the arrays the call finds. -/
theorem flushed1_4_eq (c : Dev nD) (t : Fin cfg1.N) :
    (dat1 V c).flushed 4 t = ((cfg1.win 4).blk t).view.read (Elt Ideal) (scaleRows (mm (V c main_v32 : S250000x64.Idx → EReal) (V c main_arg5 : S64x64.Idx → EReal)) (V c main_v28 : S250000x1.Idx → EReal)) := by
  show (cfg1.win 4).cut (grid1.coords t) ((dat1 V c).after 4 t) = _
  rw [after1_4]
  unfold out1_4
  rw [View.canon_unit_zero hz1]
  simp only [View.ld_unit_zero (S := S5000x64) hz1, View.ld_unit_zero (S := S64x64) hz1, View.ld_unit_zero (S := S5000x1) hz1]
  rw [pay1b]
  obtain ⟨-, -, -, -, -, -, -, -, e4a, e4b⟩ := idx1 t
  funext j
  show scaleRows (mm (iblk1 V c 0 t : Vec Ideal S5000x64 .f32) (iblk1 V c 1 t : Vec Ideal S64x64 .f32)) (iblk1 V c 2 t : Vec Ideal S5000x1 .f32) j = scaleRows (mm (V c main_v32 : S250000x64.Idx → EReal) (V c main_arg5 : S64x64.Idx → EReal)) (V c main_v28 : S250000x1.Idx → EReal) (((cfg1.win 4).blk t).view.emb j)
  have hy0 : ((((cfg1.win 4).blk t).view.emb j) 0).val = t.val * 5000 + (j 0).val := by
    show win1_4.index t 0 * 5000 + 1 * (j 0).val = _; rw [e4a]; omega
  have hy1 : ((((cfg1.win 4).blk t).view.emb j) 1).val = (j 1).val := by
    show win1_4.index t 1 * 64 + 1 * (j 1).val = _; rw [e4b]; omega
  exact (scaleRows_tile (mm (V c main_v32 : S250000x64.Idx → EReal) (V c main_arg5 : S64x64.Idx → EReal)) (mm (iblk1 V c 0 t : Vec Ideal S5000x64 .f32) (iblk1 V c 1 t : Vec Ideal S64x64 .f32)) (V c main_v28 : S250000x1.Idx → EReal) (iblk1 V c 2 t : Vec Ideal S5000x1 .f32) (((cfg1.win 4).blk t).view.emb j) j
    (mm_tile (iblk1 V c 0 t : Vec Ideal S5000x64 .f32) (V c main_v32 : S250000x64.Idx → EReal) (V c main_arg5 : S64x64.Idx → EReal) (iblk1 V c 1 t : Vec Ideal S64x64 .f32)
    (((cfg1.win 4).blk t).view.emb j) j (fun k => (blk1_0 V c t (ix2 (j 0) k) (ix2 ((((cfg1.win 4).blk t).view.emb j) 0) k) hy0 rfl).symm)
    (fun k => by rw [blk1_1]; exact congrArg _ (funext fun a => Fin.ext (by match a with | ⟨0, _⟩ => rfl | ⟨1, _⟩ => exact hy1))))
    (blk1_2 V c t (ix2 (j 0) (0 : Fin 1)) (ix2 ((((cfg1.win 4).blk t).view.emb j) 0) (0 : Fin 1)) hy0 rfl).symm).symm

/-- An index of the array is in point t's block iff each coordinate is in the block's range. -/
theorem mem_blk1_4 (t : Fin cfg1.N) (i : S250000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v33_1).slice (win1_4.rect t)).set ↔ _
  rw [View.set_slice_whole, Rect.mem_set_unit]
  exact Iff.rfl

/-- Row r of the array is written by point r / 5000. -/
theorem covered1_4 (i : S250000x64.Idx) : ∃ t : Fin cfg1.N, (cfg1.win 4).flush t = true ∧ i ∈ ((cfg1.win 4).blk t).view.set := by
  have hi0 : (i 0).val < 250000 := (i 0).isLt
  have hi1 : (i 1).val < 64 := (i 1).isLt
  have hN : cfg1.N = 50 := N_1
  have ht : (i 0).val / 5000 < cfg1.N := by rw [hN]; omega
  obtain ⟨-, -, -, -, -, -, -, -, e4a, e4b⟩ := idx1 ⟨(i 0).val / 5000, ht⟩
  refine ⟨⟨(i 0).val / 5000, ht⟩, flush1_4 _, ?_⟩
  rw [mem_blk1_4]
  intro a
  match a with
  | ⟨0, _⟩ =>
    show win1_4.index ⟨(i 0).val / 5000, ht⟩ 0 * 5000 ≤ (i 0).val ∧ (i 0).val < win1_4.index ⟨(i 0).val / 5000, ht⟩ 0 * 5000 + 5000
    rw [e4a]; show (i 0).val / 5000 * 5000 ≤ (i 0).val ∧ (i 0).val < (i 0).val / 5000 * 5000 + 5000; omega
  | ⟨1, _⟩ =>
    show win1_4.index ⟨(i 0).val / 5000, ht⟩ 1 * 64 ≤ (i 1).val ∧ (i 1).val < win1_4.index ⟨(i 0).val / 5000, ht⟩ 1 * 64 + 64
    rw [e4b]; omega

/-- The product call leaves the product of the arrays it finds. -/
theorem final1_3 (c : Dev nD) : (dat1 V c).arrAt 3 cfg1.N = mm (V c main_v32 : S250000x64.Idx → EReal) (V c main_arg5 : S64x64.Idx → EReal) :=
  (dat1 V c).arrAt_eq_of_cover 3 _ (fun t _ => flushed1_3_eq V c t) covered1_3

/-- … and the product with every row scaled by its node's weight. -/
theorem final1_4 (c : Dev nD) : (dat1 V c).arrAt 4 cfg1.N = scaleRows (mm (V c main_v32 : S250000x64.Idx → EReal) (V c main_arg5 : S64x64.Idx → EReal)) (V c main_v28 : S250000x1.Idx → EReal) :=
  (dat1 V c).arrAt_eq_of_cover 4 _ (fun t _ => flushed1_4_eq V c t) covered1_4

end Cert.KernelIdeal.Net

end
-- ==== Proof.KBlocks2.lean ====
/-
  The first layer's combine call, from blocks to the whole array.

  Point t of 50 reads rows 5000·t … 5000·t + 4999 of the aggregated messages and of the scaled product, and the whole bias
  row; it writes the same rows of the result: their sum plus the bias, rectified. That is entry-local, so what point t
  writes is block t of the function of the whole arrays, and the 50 blocks cover the 250000 rows.
-/
import proofs.«162392_j16415365005924_1_alg».proof.Proof.Gen.KernelIdeal.Frame
import proofs.«162392_j16415365005924_1_alg».proof.Proof.GcnSpec
import Idealize.ShloMosaic.Lib.Pipeline.Value

set_option maxRecDepth 16384

noncomputable section

namespace Cert.KernelIdeal.Net

open Cert.KernelIdeal Cert.KernelIdeal.Gen Idealize.ShloMosaic Idealize.ShloMosaic.TcCoe Idealize.SL.Sem
open Idealize.ShloMosaic.ValueIdx Cert.LibLayers Cert.LibBlockLayer Cert.GcnSpec
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The body's arithmetic is the combine of its blocks. -/
theorem pay2 (v0 v2 : Vec Ideal S5000x64 .f32) (v5 : Vec Ideal S1x64 .f32) : k2_pay1 v0 v2 v5 = combine v0 v2 v5 := by
  unfold k2_pay1
  exact combineBody v0 v2 v5 _ _ _ _

/-- The index maps over the grid: the node-indexed windows move with the point, the others stay. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

/-- Window 0's block at point t is rows 5000·t … of its array. -/
theorem blk2_0 (c : Dev nD) (t : Fin cfg2.N) (y : S5000x64.Idx) (i : S250000x64.Idx)
    (h0 : (i 0).val = t.val * 5000 + (y 0).val) (h1 : (i 1).val = (y 1).val) :
    (iblk2 V c 0 t : Vec Ideal S5000x64 .f32) y = (V c main_v45 : S250000x64.Idx → EReal) i := by
  obtain ⟨e0a, e0b, -, -, -, -, -, -⟩ := idx2 t
  unfold iblk2
  rw [View.read_apply]
  show V c main_v45 _ = V c main_v45 _
  refine congrArg (V c main_v45) (funext fun a => Fin.ext ?_)
  match a with
  | ⟨0, _⟩ => show win2_0.index t 0 * 5000 + 1 * (y 0).val = (i 0).val; rw [e0a, h0]; omega
  | ⟨1, _⟩ => show win2_0.index t 1 * 64 + 1 * (y 1).val = (i 1).val; rw [e0b, h1]; omega

/-- Window 1's block at point t is rows 5000·t … of its array. -/
theorem blk2_1 (c : Dev nD) (t : Fin cfg2.N) (y : S5000x64.Idx) (i : S250000x64.Idx)
    (h0 : (i 0).val = t.val * 5000 + (y 0).val) (h1 : (i 1).val = (y 1).val) :
    (iblk2 V c 1 t : Vec Ideal S5000x64 .f32) y = (V c main_v33_1 : S250000x64.Idx → EReal) i := by
  obtain ⟨-, -, e1a, e1b, -, -, -, -⟩ := idx2 t
  unfold iblk2
  rw [View.read_apply]
  show V c main_v33_1 _ = V c main_v33_1 _
  refine congrArg (V c main_v33_1) (funext fun a => Fin.ext ?_)
  match a with
  | ⟨0, _⟩ => show win2_1.index t 0 * 5000 + 1 * (y 0).val = (i 0).val; rw [e1a, h0]; omega
  | ⟨1, _⟩ => show win2_1.index t 1 * 64 + 1 * (y 1).val = (i 1).val; rw [e1b, h1]; omega

/-- Window 2's block is its whole array. -/
theorem blk2_2 (c : Dev nD) (t : Fin cfg2.N) (y : S1x64.Idx) :
    (iblk2 V c 2 t : Vec Ideal S1x64 .f32) y = (V c main_v30 : S1x64.Idx → EReal) y := by
  obtain ⟨-, -, -, -, e2a, e2b, -, -⟩ := idx2 t
  unfold iblk2
  rw [View.read_apply]
  show V c main_v30 _ = V c main_v30 _
  refine congrArg (V c main_v30) (funext fun a => Fin.ext ?_)
  match a with
  | ⟨0, _⟩ => show win2_2.index t 0 * 1 + 1 * (y 0).val = (y 0).val; rw [e2a]; omega
  | ⟨1, _⟩ => show win2_2.index t 1 * 64 + 1 * (y 1).val = (y 1).val; rw [e2b]; omega

/-- What point t writes back is block t of the combine of the arrays the call finds. -/
theorem flushed2_3_eq (c : Dev nD) (t : Fin cfg2.N) :
    (dat2 V c).flushed 3 t = ((cfg2.win 3).blk t).view.read (Elt Ideal) (combine (V c main_v45 : S250000x64.Idx → EReal) (V c main_v33_1 : S250000x64.Idx → EReal) (V c main_v30 : S1x64.Idx → EReal)) := by
  show (cfg2.win 3).cut (grid2.coords t) ((dat2 V c).after 3 t) = _
  rw [after2_3]
  unfold out2_3
  rw [View.canon_unit_zero hz2]
  simp only [View.ld_unit_zero (S := S5000x64) hz2, View.ld_unit_zero (S := S1x64) hz2]
  rw [pay2]
  obtain ⟨-, -, -, -, -, -, e3a, e3b⟩ := idx2 t
  funext j
  show combine (iblk2 V c 0 t : Vec Ideal S5000x64 .f32) (iblk2 V c 1 t : Vec Ideal S5000x64 .f32) (iblk2 V c 2 t : Vec Ideal S1x64 .f32) j = combine (V c main_v45 : S250000x64.Idx → EReal) (V c main_v33_1 : S250000x64.Idx → EReal) (V c main_v30 : S1x64.Idx → EReal) (((cfg2.win 3).blk t).view.emb j)
  have hy0 : ((((cfg2.win 3).blk t).view.emb j) 0).val = t.val * 5000 + (j 0).val := by
    show win2_3.index t 0 * 5000 + 1 * (j 0).val = _; rw [e3a]; omega
  have hy1 : ((((cfg2.win 3).blk t).view.emb j) 1).val = (j 1).val := by
    show win2_3.index t 1 * 64 + 1 * (j 1).val = _; rw [e3b]; omega
  exact (combine_tile (V c main_v45 : S250000x64.Idx → EReal) (V c main_v33_1 : S250000x64.Idx → EReal) (iblk2 V c 0 t : Vec Ideal S5000x64 .f32) (iblk2 V c 1 t : Vec Ideal S5000x64 .f32) (V c main_v30 : S1x64.Idx → EReal) (iblk2 V c 2 t : Vec Ideal S1x64 .f32) (((cfg2.win 3).blk t).view.emb j) j
    (blk2_0 V c t _ _ hy0 hy1).symm (blk2_1 V c t _ _ hy0 hy1).symm
    (by rw [blk2_2]; exact congrArg _ (funext fun a => Fin.ext (by match a with | ⟨0, _⟩ => rfl | ⟨1, _⟩ => exact hy1)))).symm

/-- An index of the array is in point t's block iff each coordinate is in the block's range. -/
theorem mem_blk2_3 (t : Fin cfg2.N) (i : S250000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v46).slice (win2_3.rect t)).set ↔ _
  rw [View.set_slice_whole, Rect.mem_set_unit]
  exact Iff.rfl

/-- Row r of the array is written by point r / 5000. -/
theorem covered2_3 (i : S250000x64.Idx) : ∃ t : Fin cfg2.N, (cfg2.win 3).flush t = true ∧ i ∈ ((cfg2.win 3).blk t).view.set := by
  have hi0 : (i 0).val < 250000 := (i 0).isLt
  have hi1 : (i 1).val < 64 := (i 1).isLt
  have hN : cfg2.N = 50 := N_2
  have ht : (i 0).val / 5000 < cfg2.N := by rw [hN]; omega
  obtain ⟨-, -, -, -, -, -, e3a, e3b⟩ := idx2 ⟨(i 0).val / 5000, ht⟩
  refine ⟨⟨(i 0).val / 5000, ht⟩, flush2_3 _, ?_⟩
  rw [mem_blk2_3]
  intro a
  match a with
  | ⟨0, _⟩ =>
    show win2_3.index ⟨(i 0).val / 5000, ht⟩ 0 * 5000 ≤ (i 0).val ∧ (i 0).val < win2_3.index ⟨(i 0).val / 5000, ht⟩ 0 * 5000 + 5000
    rw [e3a]; show (i 0).val / 5000 * 5000 ≤ (i 0).val ∧ (i 0).val < (i 0).val / 5000 * 5000 + 5000; omega
  | ⟨1, _⟩ =>
    show win2_3.index ⟨(i 0).val / 5000, ht⟩ 1 * 64 ≤ (i 1).val ∧ (i 1).val < win2_3.index ⟨(i 0).val / 5000, ht⟩ 1 * 64 + 64
    rw [e3b]; omega

/-- The combine call leaves the combine of the arrays it finds. -/
theorem final2_3 (c : Dev nD) : (dat2 V c).arrAt 3 cfg2.N = combine (V c main_v45 : S250000x64.Idx → EReal) (V c main_v33_1 : S250000x64.Idx → EReal) (V c main_v30 : S1x64.Idx → EReal) :=
  (dat2 V c).arrAt_eq_of_cover 3 _ (fun t _ => flushed2_3_eq V c t) covered2_3

end Cert.KernelIdeal.Net

end
-- ==== Proof.KBlocks3.lean ====
/-
  The second layer's product call, from blocks to the whole arrays.

  Point t of 50 reads rows 5000·t … 5000·t + 4999 of the node features h and of the column of self-loop weights, and the
  whole 64 × 64 weight matrix; it writes the same rows of two results: the product h · W, and the product with every row
  scaled by its node's self-loop weight. Both are row-local, so what point t writes is block t of the function of the
  whole arrays, and the 50 blocks cover the 250000 rows.
-/
import proofs.«162392_j16415365005924_1_alg».proof.Proof.Gen.KernelIdeal.Frame
import proofs.«162392_j16415365005924_1_alg».proof.Proof.GcnSpec
import Idealize.ShloMosaic.Lib.Pipeline.Value

set_option maxRecDepth 16384

noncomputable section

namespace Cert.KernelIdeal.Net

open Cert.KernelIdeal Cert.KernelIdeal.Gen Idealize.ShloMosaic Idealize.ShloMosaic.TcCoe Idealize.SL.Sem
open Idealize.ShloMosaic.ValueIdx Cert.LibLayers Cert.LibBlockLayer Cert.GcnSpec
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The first store's arithmetic is the product of its blocks. -/
theorem pay3a (v0 : Vec Ideal S5000x64 .f32) (v3 : Vec Ideal S64x64 .f32) : k3_pay1 v0 v3 = mm v0 v3 := by
  unfold k3_pay1
  simp only [shapeCast_self]
  exact mmBody dot_S5000x64_S64x64_S5000x64_1_0_0_1_n_n rfl rfl rfl rfl rfl rfl none v0 v3 _ _

/-- The second store's arithmetic is that product with its rows scaled by the block of weights. -/
theorem pay3b (v0 : Vec Ideal S5000x64 .f32) (v3 : Vec Ideal S64x64 .f32) (v7 : Vec Ideal S5000x1 .f32) :
    k3_pay2 v0 v3 v7 = scaleRows (mm v0 v3) v7 := by
  unfold k3_pay2
  rw [pay3a]
  exact scaleBody (mm v0 v3) v7 _ _

/-- The index maps over the grid: the node-indexed windows move with the point, the others stay. -/
theorem idx3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0
    ∧ win3_3.index t (0 : Fin 2) = t.val
    ∧ win3_3.index t (1 : Fin 2) = 0
    ∧ win3_4.index t (0 : Fin 2) = t.val
    ∧ win3_4.index t (1 : Fin 2) = 0 :=
  (by decide +kernel : ∀ t : Fin grid3.N, _)

/-- Window 0's block at point t is rows 5000·t … of its array. -/
theorem blk3_0 (c : Dev nD) (t : Fin cfg3.N) (y : S5000x64.Idx) (i : S250000x64.Idx)
    (h0 : (i 0).val = t.val * 5000 + (y 0).val) (h1 : (i 1).val = (y 1).val) :
    (iblk3 V c 0 t : Vec Ideal S5000x64 .f32) y = (V c main_v46 : S250000x64.Idx → EReal) i := by
  obtain ⟨e0a, e0b, -, -, -, -, -, -, -, -⟩ := idx3 t
  unfold iblk3
  rw [View.read_apply]
  show V c main_v46 _ = V c main_v46 _
  refine congrArg (V c main_v46) (funext fun a => Fin.ext ?_)
  match a with
  | ⟨0, _⟩ => show win3_0.index t 0 * 5000 + 1 * (y 0).val = (i 0).val; rw [e0a, h0]; omega
  | ⟨1, _⟩ => show win3_0.index t 1 * 64 + 1 * (y 1).val = (i 1).val; rw [e0b, h1]; omega

/-- Window 1's block is its whole array. -/
theorem blk3_1 (c : Dev nD) (t : Fin cfg3.N) (y : S64x64.Idx) :
    (iblk3 V c 1 t : Vec Ideal S64x64 .f32) y = (V c main_arg7 : S64x64.Idx → EReal) y := by
  obtain ⟨-, -, e1a, e1b, -, -, -, -, -, -⟩ := idx3 t
  unfold iblk3
  rw [View.read_apply]
  show V c main_arg7 _ = V c main_arg7 _
  refine congrArg (V c main_arg7) (funext fun a => Fin.ext ?_)
  match a with
  | ⟨0, _⟩ => show win3_1.index t 0 * 64 + 1 * (y 0).val = (y 0).val; rw [e1a]; omega
  | ⟨1, _⟩ => show win3_1.index t 1 * 64 + 1 * (y 1).val = (y 1).val; rw [e1b]; omega

/-- Window 2's block at point t is rows 5000·t … of its array. -/
theorem blk3_2 (c : Dev nD) (t : Fin cfg3.N) (y : S5000x1.Idx) (i : S250000x1.Idx)
    (h0 : (i 0).val = t.val * 5000 + (y 0).val) (h1 : (i 1).val = (y 1).val) :
    (iblk3 V c 2 t : Vec Ideal S5000x1 .f32) y = (V c main_v28 : S250000x1.Idx → EReal) i := by
  obtain ⟨-, -, -, -, e2a, e2b, -, -, -, -⟩ := idx3 t
  unfold iblk3
  rw [View.read_apply]
  show V c main_v28 _ = V c main_v28 _
  refine congrArg (V c main_v28) (funext fun a => Fin.ext ?_)
  match a with
  | ⟨0, _⟩ => show win3_2.index t 0 * 5000 + 1 * (y 0).val = (i 0).val; rw [e2a, h0]; omega
  | ⟨1, _⟩ => show win3_2.index t 1 * 1 + 1 * (y 1).val = (i 1).val; rw [e2b, h1]; omega

/-- What point t writes back to the product's array is block t of the product of the arrays the call finds. -/
theorem flushed3_3_eq (c : Dev nD) (t : Fin cfg3.N) :
    (dat3 V c).flushed 3 t = ((cfg3.win 3).blk t).view.read (Elt Ideal) (mm (V c main_v46 : S250000x64.Idx → EReal) (V c main_arg7 : S64x64.Idx → EReal)) := by
  show (cfg3.win 3).cut (grid3.coords t) ((dat3 V c).after 3 t) = _
  rw [after3_3]
  unfold out3_3
  rw [View.canon_unit_zero hz3]
  simp only [View.ld_unit_zero (S := S5000x64) hz3, View.ld_unit_zero (S := S64x64) hz3]
  rw [pay3a]
  obtain ⟨-, -, -, -, -, -, e3a, e3b, -, -⟩ := idx3 t
  funext j
  show mm (iblk3 V c 0 t : Vec Ideal S5000x64 .f32) (iblk3 V c 1 t : Vec Ideal S64x64 .f32) j = mm (V c main_v46 : S250000x64.Idx → EReal) (V c main_arg7 : S64x64.Idx → EReal) (((cfg3.win 3).blk t).view.emb j)
  have hy0 : ((((cfg3.win 3).blk t).view.emb j) 0).val = t.val * 5000 + (j 0).val := by
    show win3_3.index t 0 * 5000 + 1 * (j 0).val = _; rw [e3a]; omega
  have hy1 : ((((cfg3.win 3).blk t).view.emb j) 1).val = (j 1).val := by
    show win3_3.index t 1 * 64 + 1 * (j 1).val = _; rw [e3b]; omega
  exact (mm_tile (iblk3 V c 0 t : Vec Ideal S5000x64 .f32) (V c main_v46 : S250000x64.Idx → EReal) (V c main_arg7 : S64x64.Idx → EReal) (iblk3 V c 1 t : Vec Ideal S64x64 .f32)
    (((cfg3.win 3).blk t).view.emb j) j (fun k => (blk3_0 V c t (ix2 (j 0) k) (ix2 ((((cfg3.win 3).blk t).view.emb j) 0) k) hy0 rfl).symm)
    (fun k => by rw [blk3_1]; exact congrArg _ (funext fun a => Fin.ext (by match a with | ⟨0, _⟩ => rfl | ⟨1, _⟩ => exact hy1)))).symm

/-- An index of the array is in point t's block iff each coordinate is in the block's range. -/
theorem mem_blk3_3 (t : Fin cfg3.N) (i : S250000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v47_0).slice (win3_3.rect t)).set ↔ _
  rw [View.set_slice_whole, Rect.mem_set_unit]
  exact Iff.rfl

/-- Row r of the array is written by point r / 5000. -/
theorem covered3_3 (i : S250000x64.Idx) : ∃ t : Fin cfg3.N, (cfg3.win 3).flush t = true ∧ i ∈ ((cfg3.win 3).blk t).view.set := by
  have hi0 : (i 0).val < 250000 := (i 0).isLt
  have hi1 : (i 1).val < 64 := (i 1).isLt
  have hN : cfg3.N = 50 := N_3
  have ht : (i 0).val / 5000 < cfg3.N := by rw [hN]; omega
  obtain ⟨-, -, -, -, -, -, e3a, e3b, -, -⟩ := idx3 ⟨(i 0).val / 5000, ht⟩
  refine ⟨⟨(i 0).val / 5000, ht⟩, flush3_3 _, ?_⟩
  rw [mem_blk3_3]
  intro a
  match a with
  | ⟨0, _⟩ =>
    show win3_3.index ⟨(i 0).val / 5000, ht⟩ 0 * 5000 ≤ (i 0).val ∧ (i 0).val < win3_3.index ⟨(i 0).val / 5000, ht⟩ 0 * 5000 + 5000
    rw [e3a]; show (i 0).val / 5000 * 5000 ≤ (i 0).val ∧ (i 0).val < (i 0).val / 5000 * 5000 + 5000; omega
  | ⟨1, _⟩ =>
    show win3_3.index ⟨(i 0).val / 5000, ht⟩ 1 * 64 ≤ (i 1).val ∧ (i 1).val < win3_3.index ⟨(i 0).val / 5000, ht⟩ 1 * 64 + 64
    rw [e3b]; omega

/-- What point t writes back to the scaled product's array is block t of the scaled product of the arrays the call finds. -/
theorem flushed3_4_eq (c : Dev nD) (t : Fin cfg3.N) :
    (dat3 V c).flushed 4 t = ((cfg3.win 4).blk t).view.read (Elt Ideal) (scaleRows (mm (V c main_v46 : S250000x64.Idx → EReal) (V c main_arg7 : S64x64.Idx → EReal)) (V c main_v28 : S250000x1.Idx → EReal)) := by
  show (cfg3.win 4).cut (grid3.coords t) ((dat3 V c).after 4 t) = _
  rw [after3_4]
  unfold out3_4
  rw [View.canon_unit_zero hz3]
  simp only [View.ld_unit_zero (S := S5000x64) hz3, View.ld_unit_zero (S := S64x64) hz3, View.ld_unit_zero (S := S5000x1) hz3]
  rw [pay3b]
  obtain ⟨-, -, -, -, -, -, -, -, e4a, e4b⟩ := idx3 t
  funext j
  show scaleRows (mm (iblk3 V c 0 t : Vec Ideal S5000x64 .f32) (iblk3 V c 1 t : Vec Ideal S64x64 .f32)) (iblk3 V c 2 t : Vec Ideal S5000x1 .f32) j = scaleRows (mm (V c main_v46 : S250000x64.Idx → EReal) (V c main_arg7 : S64x64.Idx → EReal)) (V c main_v28 : S250000x1.Idx → EReal) (((cfg3.win 4).blk t).view.emb j)
  have hy0 : ((((cfg3.win 4).blk t).view.emb j) 0).val = t.val * 5000 + (j 0).val := by
    show win3_4.index t 0 * 5000 + 1 * (j 0).val = _; rw [e4a]; omega
  have hy1 : ((((cfg3.win 4).blk t).view.emb j) 1).val = (j 1).val := by
    show win3_4.index t 1 * 64 + 1 * (j 1).val = _; rw [e4b]; omega
  exact (scaleRows_tile (mm (V c main_v46 : S250000x64.Idx → EReal) (V c main_arg7 : S64x64.Idx → EReal)) (mm (iblk3 V c 0 t : Vec Ideal S5000x64 .f32) (iblk3 V c 1 t : Vec Ideal S64x64 .f32)) (V c main_v28 : S250000x1.Idx → EReal) (iblk3 V c 2 t : Vec Ideal S5000x1 .f32) (((cfg3.win 4).blk t).view.emb j) j
    (mm_tile (iblk3 V c 0 t : Vec Ideal S5000x64 .f32) (V c main_v46 : S250000x64.Idx → EReal) (V c main_arg7 : S64x64.Idx → EReal) (iblk3 V c 1 t : Vec Ideal S64x64 .f32)
    (((cfg3.win 4).blk t).view.emb j) j (fun k => (blk3_0 V c t (ix2 (j 0) k) (ix2 ((((cfg3.win 4).blk t).view.emb j) 0) k) hy0 rfl).symm)
    (fun k => by rw [blk3_1]; exact congrArg _ (funext fun a => Fin.ext (by match a with | ⟨0, _⟩ => rfl | ⟨1, _⟩ => exact hy1))))
    (blk3_2 V c t (ix2 (j 0) (0 : Fin 1)) (ix2 ((((cfg3.win 4).blk t).view.emb j) 0) (0 : Fin 1)) hy0 rfl).symm).symm

/-- An index of the array is in point t's block iff each coordinate is in the block's range. -/
theorem mem_blk3_4 (t : Fin cfg3.N) (i : S250000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v47_1).slice (win3_4.rect t)).set ↔ _
  rw [View.set_slice_whole, Rect.mem_set_unit]
  exact Iff.rfl

/-- Row r of the array is written by point r / 5000. -/
theorem covered3_4 (i : S250000x64.Idx) : ∃ t : Fin cfg3.N, (cfg3.win 4).flush t = true ∧ i ∈ ((cfg3.win 4).blk t).view.set := by
  have hi0 : (i 0).val < 250000 := (i 0).isLt
  have hi1 : (i 1).val < 64 := (i 1).isLt
  have hN : cfg3.N = 50 := N_3
  have ht : (i 0).val / 5000 < cfg3.N := by rw [hN]; omega
  obtain ⟨-, -, -, -, -, -, -, -, e4a, e4b⟩ := idx3 ⟨(i 0).val / 5000, ht⟩
  refine ⟨⟨(i 0).val / 5000, ht⟩, flush3_4 _, ?_⟩
  rw [mem_blk3_4]
  intro a
  match a with
  | ⟨0, _⟩ =>
    show win3_4.index ⟨(i 0).val / 5000, ht⟩ 0 * 5000 ≤ (i 0).val ∧ (i 0).val < win3_4.index ⟨(i 0).val / 5000, ht⟩ 0 * 5000 + 5000
    rw [e4a]; show (i 0).val / 5000 * 5000 ≤ (i 0).val ∧ (i 0).val < (i 0).val / 5000 * 5000 + 5000; omega
  | ⟨1, _⟩ =>
    show win3_4.index ⟨(i 0).val / 5000, ht⟩ 1 * 64 ≤ (i 1).val ∧ (i 1).val < win3_4.index ⟨(i 0).val / 5000, ht⟩ 1 * 64 + 64
    rw [e4b]; omega

/-- The product call leaves the product of the arrays it finds. -/
theorem final3_3 (c : Dev nD) : (dat3 V c).arrAt 3 cfg3.N = mm (V c main_v46 : S250000x64.Idx → EReal) (V c main_arg7 : S64x64.Idx → EReal) :=
  (dat3 V c).arrAt_eq_of_cover 3 _ (fun t _ => flushed3_3_eq V c t) covered3_3

/-- … and the product with every row scaled by its node's weight. -/
theorem final3_4 (c : Dev nD) : (dat3 V c).arrAt 4 cfg3.N = scaleRows (mm (V c main_v46 : S250000x64.Idx → EReal) (V c main_arg7 : S64x64.Idx → EReal)) (V c main_v28 : S250000x1.Idx → EReal) :=
  (dat3 V c).arrAt_eq_of_cover 4 _ (fun t _ => flushed3_4_eq V c t) covered3_4

end Cert.KernelIdeal.Net

end
-- ==== Proof.KBlocks4.lean ====
/-
  The second layer's combine call, from blocks to the whole array.

  Point t of 50 reads rows 5000·t … 5000·t + 4999 of the aggregated messages and of the scaled product, and the whole bias
  row; it writes the same rows of the result: their sum plus the bias, rectified. That is entry-local, so what point t
  writes is block t of the function of the whole arrays, and the 50 blocks cover the 250000 rows.
-/
import proofs.«162392_j16415365005924_1_alg».proof.Proof.Gen.KernelIdeal.Frame
import proofs.«162392_j16415365005924_1_alg».proof.Proof.GcnSpec
import Idealize.ShloMosaic.Lib.Pipeline.Value

set_option maxRecDepth 16384

noncomputable section

namespace Cert.KernelIdeal.Net

open Cert.KernelIdeal Cert.KernelIdeal.Gen Idealize.ShloMosaic Idealize.ShloMosaic.TcCoe Idealize.SL.Sem
open Idealize.ShloMosaic.ValueIdx Cert.LibLayers Cert.LibBlockLayer Cert.GcnSpec
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-- The body's arithmetic is the combine of its blocks. -/
theorem pay4 (v0 v2 : Vec Ideal S5000x64 .f32) (v5 : Vec Ideal S1x64 .f32) : k4_pay1 v0 v2 v5 = combine v0 v2 v5 := by
  unfold k4_pay1
  exact combineBody v0 v2 v5 _ _ _ _

/-- The index maps over the grid: the node-indexed windows move with the point, the others stay. -/
theorem idx4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0 :=
  (by decide +kernel : ∀ t : Fin grid4.N, _)

/-- Window 0's block at point t is rows 5000·t … of its array. -/
theorem blk4_0 (c : Dev nD) (t : Fin cfg4.N) (y : S5000x64.Idx) (i : S250000x64.Idx)
    (h0 : (i 0).val = t.val * 5000 + (y 0).val) (h1 : (i 1).val = (y 1).val) :
    (iblk4 V c 0 t : Vec Ideal S5000x64 .f32) y = (V c main_v59 : S250000x64.Idx → EReal) i := by
  obtain ⟨e0a, e0b, -, -, -, -, -, -⟩ := idx4 t
  unfold iblk4
  rw [View.read_apply]
  show V c main_v59 _ = V c main_v59 _
  refine congrArg (V c main_v59) (funext fun a => Fin.ext ?_)
  match a with
  | ⟨0, _⟩ => show win4_0.index t 0 * 5000 + 1 * (y 0).val = (i 0).val; rw [e0a, h0]; omega
  | ⟨1, _⟩ => show win4_0.index t 1 * 64 + 1 * (y 1).val = (i 1).val; rw [e0b, h1]; omega

/-- Window 1's block at point t is rows 5000·t … of its array. -/
theorem blk4_1 (c : Dev nD) (t : Fin cfg4.N) (y : S5000x64.Idx) (i : S250000x64.Idx)
    (h0 : (i 0).val = t.val * 5000 + (y 0).val) (h1 : (i 1).val = (y 1).val) :
    (iblk4 V c 1 t : Vec Ideal S5000x64 .f32) y = (V c main_v47_1 : S250000x64.Idx → EReal) i := by
  obtain ⟨-, -, e1a, e1b, -, -, -, -⟩ := idx4 t
  unfold iblk4
  rw [View.read_apply]
  show V c main_v47_1 _ = V c main_v47_1 _
  refine congrArg (V c main_v47_1) (funext fun a => Fin.ext ?_)
  match a with
  | ⟨0, _⟩ => show win4_1.index t 0 * 5000 + 1 * (y 0).val = (i 0).val; rw [e1a, h0]; omega
  | ⟨1, _⟩ => show win4_1.index t 1 * 64 + 1 * (y 1).val = (i 1).val; rw [e1b, h1]; omega

/-- Window 2's block is its whole array. -/
theorem blk4_2 (c : Dev nD) (t : Fin cfg4.N) (y : S1x64.Idx) :
    (iblk4 V c 2 t : Vec Ideal S1x64 .f32) y = (V c main_v31 : S1x64.Idx → EReal) y := by
  obtain ⟨-, -, -, -, e2a, e2b, -, -⟩ := idx4 t
  unfold iblk4
  rw [View.read_apply]
  show V c main_v31 _ = V c main_v31 _
  refine congrArg (V c main_v31) (funext fun a => Fin.ext ?_)
  match a with
  | ⟨0, _⟩ => show win4_2.index t 0 * 1 + 1 * (y 0).val = (y 0).val; rw [e2a]; omega
  | ⟨1, _⟩ => show win4_2.index t 1 * 64 + 1 * (y 1).val = (y 1).val; rw [e2b]; omega

/-- What point t writes back is block t of the combine of the arrays the call finds. -/
theorem flushed4_3_eq (c : Dev nD) (t : Fin cfg4.N) :
    (dat4 V c).flushed 3 t = ((cfg4.win 3).blk t).view.read (Elt Ideal) (combine (V c main_v59 : S250000x64.Idx → EReal) (V c main_v47_1 : S250000x64.Idx → EReal) (V c main_v31 : S1x64.Idx → EReal)) := by
  show (cfg4.win 3).cut (grid4.coords t) ((dat4 V c).after 3 t) = _
  rw [after4_3]
  unfold out4_3
  rw [View.canon_unit_zero hz4]
  simp only [View.ld_unit_zero (S := S5000x64) hz4, View.ld_unit_zero (S := S1x64) hz4]
  rw [pay4]
  obtain ⟨-, -, -, -, -, -, e3a, e3b⟩ := idx4 t
  funext j
  show combine (iblk4 V c 0 t : Vec Ideal S5000x64 .f32) (iblk4 V c 1 t : Vec Ideal S5000x64 .f32) (iblk4 V c 2 t : Vec Ideal S1x64 .f32) j = combine (V c main_v59 : S250000x64.Idx → EReal) (V c main_v47_1 : S250000x64.Idx → EReal) (V c main_v31 : S1x64.Idx → EReal) (((cfg4.win 3).blk t).view.emb j)
  have hy0 : ((((cfg4.win 3).blk t).view.emb j) 0).val = t.val * 5000 + (j 0).val := by
    show win4_3.index t 0 * 5000 + 1 * (j 0).val = _; rw [e3a]; omega
  have hy1 : ((((cfg4.win 3).blk t).view.emb j) 1).val = (j 1).val := by
    show win4_3.index t 1 * 64 + 1 * (j 1).val = _; rw [e3b]; omega
  exact (combine_tile (V c main_v59 : S250000x64.Idx → EReal) (V c main_v47_1 : S250000x64.Idx → EReal) (iblk4 V c 0 t : Vec Ideal S5000x64 .f32) (iblk4 V c 1 t : Vec Ideal S5000x64 .f32) (V c main_v31 : S1x64.Idx → EReal) (iblk4 V c 2 t : Vec Ideal S1x64 .f32) (((cfg4.win 3).blk t).view.emb j) j
    (blk4_0 V c t _ _ hy0 hy1).symm (blk4_1 V c t _ _ hy0 hy1).symm
    (by rw [blk4_2]; exact congrArg _ (funext fun a => Fin.ext (by match a with | ⟨0, _⟩ => rfl | ⟨1, _⟩ => exact hy1)))).symm

/-- An index of the array is in point t's block iff each coordinate is in the block's range. -/
theorem mem_blk4_3 (t : Fin cfg4.N) (i : S250000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v60).slice (win4_3.rect t)).set ↔ _
  rw [View.set_slice_whole, Rect.mem_set_unit]
  exact Iff.rfl

/-- Row r of the array is written by point r / 5000. -/
theorem covered4_3 (i : S250000x64.Idx) : ∃ t : Fin cfg4.N, (cfg4.win 3).flush t = true ∧ i ∈ ((cfg4.win 3).blk t).view.set := by
  have hi0 : (i 0).val < 250000 := (i 0).isLt
  have hi1 : (i 1).val < 64 := (i 1).isLt
  have hN : cfg4.N = 50 := N_4
  have ht : (i 0).val / 5000 < cfg4.N := by rw [hN]; omega
  obtain ⟨-, -, -, -, -, -, e3a, e3b⟩ := idx4 ⟨(i 0).val / 5000, ht⟩
  refine ⟨⟨(i 0).val / 5000, ht⟩, flush4_3 _, ?_⟩
  rw [mem_blk4_3]
  intro a
  match a with
  | ⟨0, _⟩ =>
    show win4_3.index ⟨(i 0).val / 5000, ht⟩ 0 * 5000 ≤ (i 0).val ∧ (i 0).val < win4_3.index ⟨(i 0).val / 5000, ht⟩ 0 * 5000 + 5000
    rw [e3a]; show (i 0).val / 5000 * 5000 ≤ (i 0).val ∧ (i 0).val < (i 0).val / 5000 * 5000 + 5000; omega
  | ⟨1, _⟩ =>
    show win4_3.index ⟨(i 0).val / 5000, ht⟩ 1 * 64 ≤ (i 1).val ∧ (i 1).val < win4_3.index ⟨(i 0).val / 5000, ht⟩ 1 * 64 + 64
    rw [e3b]; omega

/-- The combine call leaves the combine of the arrays it finds. -/
theorem final4_3 (c : Dev nD) : (dat4 V c).arrAt 3 cfg4.N = combine (V c main_v59 : S250000x64.Idx → EReal) (V c main_v47_1 : S250000x64.Idx → EReal) (V c main_v31 : S1x64.Idx → EReal) :=
  (dat4 V c).arrAt_eq_of_cover 3 _ (fun t _ => flushed4_3_eq V c t) covered4_3

end Cert.KernelIdeal.Net

end
-- ==== Proof.KFold.lean ====
/-
  The kernel program's result, read back through the nine segment boundaries.

  Buffers no segment writes keep their contents from boundary to boundary (a call leaves every buffer that is not one of
  its result arrays as it found it; a host stretch leaves every buffer it does not write). Each call's result array is the
  layer function of the arrays the call finds (the blocks-to-array modules). Each host stretch between two calls gathers
  the projected features along the edges' sources, scales by the edge weights and scatter-adds onto the targets: the
  reference's own aggregation of the features it is given. The last stretch is the reference's pool. Composed, the result
  buffer holds the network function of the argument arrays.
-/
import proofs.«162392_j16415365005924_1_alg».proof.Proof.KEntry
import proofs.«162392_j16415365005924_1_alg».proof.Proof.KBlocks0
import proofs.«162392_j16415365005924_1_alg».proof.Proof.KBlocks1
import proofs.«162392_j16415365005924_1_alg».proof.Proof.KBlocks2
import proofs.«162392_j16415365005924_1_alg».proof.Proof.KBlocks3
import proofs.«162392_j16415365005924_1_alg».proof.Proof.KBlocks4
import Idealize.ShloMosaic.Lib.StableHlo.Run

set_option maxRecDepth 16384
set_option maxHeartbeats 1000000

noncomputable section

namespace Cert.KernelIdeal.Net

open Cert.KernelIdeal Cert.KernelIdeal.Gen Idealize.ShloMosaic Idealize.ShloMosaic.TcCoe Idealize.SL.Sem Idealize.ShloMosaic.StableHlo
open Idealize.ShloMosaic.ValueIdx Cert.LibLayers Cert.LibBlockLayer Cert.GcnSpec
open Cert.ReferenceIdeal.Read (val_main_v1 val_main_v3 val_main_v31 val_main_v45)
open Cert.ReferenceIdeal.Net (agg pool net edgeCol selfCol)

variable (m : (ℓ : Loc nD τ sig) → Buf (Elt Ideal) ℓ) (ρ : Dev nD → PrngReg)

/-! ## Buffers a host stretch does not write -/

theorem keep2_v1 (c : Dev nD) : W4 m ρ c (Proc.devRef .tc main_v1) = W3 m ρ c (Proc.devRef .tc main_v1) := by
  show StableHlo.after hostOps2 (W3 m ρ c) (Proc.devRef .tc main_v1) = _
  dsimp only [hostOps2]
  after_results

theorem keep2_v3 (c : Dev nD) : W4 m ρ c (Proc.devRef .tc main_v3) = W3 m ρ c (Proc.devRef .tc main_v3) := by
  show StableHlo.after hostOps2 (W3 m ρ c) (Proc.devRef .tc main_v3) = _
  dsimp only [hostOps2]
  after_results

theorem keep2_v26 (c : Dev nD) : W4 m ρ c (Proc.devRef .tc main_v26) = W3 m ρ c (Proc.devRef .tc main_v26) := by
  show StableHlo.after hostOps2 (W3 m ρ c) (Proc.devRef .tc main_v26) = _
  dsimp only [hostOps2]
  after_results

theorem keep2_v28 (c : Dev nD) : W4 m ρ c (Proc.devRef .tc main_v28) = W3 m ρ c (Proc.devRef .tc main_v28) := by
  show StableHlo.after hostOps2 (W3 m ρ c) (Proc.devRef .tc main_v28) = _
  dsimp only [hostOps2]
  after_results

theorem keep2_v30 (c : Dev nD) : W4 m ρ c (Proc.devRef .tc main_v30) = W3 m ρ c (Proc.devRef .tc main_v30) := by
  show StableHlo.after hostOps2 (W3 m ρ c) (Proc.devRef .tc main_v30) = _
  dsimp only [hostOps2]
  after_results

theorem keep2_v31 (c : Dev nD) : W4 m ρ c (Proc.devRef .tc main_v31) = W3 m ρ c (Proc.devRef .tc main_v31) := by
  show StableHlo.after hostOps2 (W3 m ρ c) (Proc.devRef .tc main_v31) = _
  dsimp only [hostOps2]
  after_results

theorem keep2_v33_1 (c : Dev nD) : W4 m ρ c (Proc.devRef .tc main_v33_1) = W3 m ρ c (Proc.devRef .tc main_v33_1) := by
  show StableHlo.after hostOps2 (W3 m ρ c) (Proc.devRef .tc main_v33_1) = _
  dsimp only [hostOps2]
  after_results

theorem keep2_arg7 (c : Dev nD) : W4 m ρ c (Proc.devRef .tc main_arg7) = W3 m ρ c (Proc.devRef .tc main_arg7) := by
  show StableHlo.after hostOps2 (W3 m ρ c) (Proc.devRef .tc main_arg7) = _
  dsimp only [hostOps2]
  after_results

theorem keep2_arg2 (c : Dev nD) : W4 m ρ c (Proc.devRef .tc main_arg2) = W3 m ρ c (Proc.devRef .tc main_arg2) := by
  show StableHlo.after hostOps2 (W3 m ρ c) (Proc.devRef .tc main_arg2) = _
  dsimp only [hostOps2]
  after_results

theorem keep4_v31 (c : Dev nD) : W7 m ρ c (Proc.devRef .tc main_v31) = W6 m ρ c (Proc.devRef .tc main_v31) := by
  show StableHlo.after hostOps4 (W6 m ρ c) (Proc.devRef .tc main_v31) = _
  dsimp only [hostOps4]
  after_results

theorem keep4_v47_1 (c : Dev nD) : W7 m ρ c (Proc.devRef .tc main_v47_1) = W6 m ρ c (Proc.devRef .tc main_v47_1) := by
  show StableHlo.after hostOps4 (W6 m ρ c) (Proc.devRef .tc main_v47_1) = _
  dsimp only [hostOps4]
  after_results

theorem keep4_arg2 (c : Dev nD) : W7 m ρ c (Proc.devRef .tc main_arg2) = W6 m ρ c (Proc.devRef .tc main_arg2) := by
  show StableHlo.after hostOps4 (W6 m ρ c) (Proc.devRef .tc main_arg2) = _
  dsimp only [hostOps4]
  after_results

/-! ## The carried buffers where they are read -/

/-- The edges' sources when the first aggregation reads them. -/
theorem v1_at3 (c : Dev nD) : W3 m ρ c (Proc.devRef .tc main_v1) = val_main_v1 (F := Ideal) (X1 m c) :=
  ((W3_of_ne m ρ c main_v1 (by decide)).trans ((W2_of_ne m ρ c main_v1 (by decide)).trans (W1_v1 m ρ c)))

/-- The edges' targets when the first aggregation reads them. -/
theorem v3_at3 (c : Dev nD) : W3 m ρ c (Proc.devRef .tc main_v3) = val_main_v3 (F := Ideal) (X1 m c) :=
  ((W3_of_ne m ρ c main_v3 (by decide)).trans ((W2_of_ne m ρ c main_v3 (by decide)).trans (W1_v3 m ρ c)))

/-- The edge weights when the first aggregation reads them. -/
theorem v26_at3 (c : Dev nD) : W3 m ρ c (Proc.devRef .tc main_v26) = edgeCol (X1 m c) shapeCasts_S4000000_S4000000x1 :=
  ((W3_of_ne m ρ c main_v26 (by decide)).trans ((W2_of_ne m ρ c main_v26 (by decide)).trans (W1_v26 m ρ c)))

/-- The edges' sources when the second aggregation reads them. -/
theorem v1_at6 (c : Dev nD) : W6 m ρ c (Proc.devRef .tc main_v1) = val_main_v1 (F := Ideal) (X1 m c) :=
  ((W6_of_ne m ρ c main_v1 (by decide)).trans ((W5_of_ne m ρ c main_v1 (by decide)).trans ((keep2_v1 m ρ c).trans ((W3_of_ne m ρ c main_v1 (by decide)).trans ((W2_of_ne m ρ c main_v1 (by decide)).trans (W1_v1 m ρ c))))))

/-- The edges' targets when the second aggregation reads them. -/
theorem v3_at6 (c : Dev nD) : W6 m ρ c (Proc.devRef .tc main_v3) = val_main_v3 (F := Ideal) (X1 m c) :=
  ((W6_of_ne m ρ c main_v3 (by decide)).trans ((W5_of_ne m ρ c main_v3 (by decide)).trans ((keep2_v3 m ρ c).trans ((W3_of_ne m ρ c main_v3 (by decide)).trans ((W2_of_ne m ρ c main_v3 (by decide)).trans (W1_v3 m ρ c))))))

/-- The edge weights when the second aggregation reads them. -/
theorem v26_at6 (c : Dev nD) : W6 m ρ c (Proc.devRef .tc main_v26) = edgeCol (X1 m c) shapeCasts_S4000000_S4000000x1 :=
  ((W6_of_ne m ρ c main_v26 (by decide)).trans ((W5_of_ne m ρ c main_v26 (by decide)).trans ((keep2_v26 m ρ c).trans ((W3_of_ne m ρ c main_v26 (by decide)).trans ((W2_of_ne m ρ c main_v26 (by decide)).trans (W1_v26 m ρ c))))))

/-- The self-loop weights when the first product call reads them. -/
theorem v28_at2 (c : Dev nD) : W2 m ρ c (Proc.devRef .tc main_v28) = selfCol (X1 m c) shapeCasts_S250000_S250000x1 :=
  ((W2_of_ne m ρ c main_v28 (by decide)).trans (W1_v28 m ρ c))

/-- The self-loop weights when the second product call reads them. -/
theorem v28_at5 (c : Dev nD) : W5 m ρ c (Proc.devRef .tc main_v28) = selfCol (X1 m c) shapeCasts_S250000_S250000x1 :=
  ((W5_of_ne m ρ c main_v28 (by decide)).trans ((keep2_v28 m ρ c).trans (((W3_arr m ρ c 2).trans (((dat1 (V2 m ρ) c).arrAt_in 2 rfl _).trans (A_eq1 (V2 m ρ) c 2))).trans ((W2_of_ne m ρ c main_v28 (by decide)).trans (W1_v28 m ρ c)))))

/-- The first bias row when the first combine call reads it. -/
theorem v30_at4 (c : Dev nD) : W4 m ρ c (Proc.devRef .tc main_v30) = shapeCast S1x64 (X6 m c) shapeCasts_S64_S1x64 :=
  ((keep2_v30 m ρ c).trans ((W3_of_ne m ρ c main_v30 (by decide)).trans ((W2_of_ne m ρ c main_v30 (by decide)).trans (W1_v30 m ρ c))))

/-- The second bias row when the second combine call reads it. -/
theorem v31_at7 (c : Dev nD) : W7 m ρ c (Proc.devRef .tc main_v31) = shapeCast S1x64 (X8 m c) shapeCasts_S64_S1x64 :=
  ((keep4_v31 m ρ c).trans ((W6_of_ne m ρ c main_v31 (by decide)).trans ((W5_of_ne m ρ c main_v31 (by decide)).trans ((keep2_v31 m ρ c).trans ((W3_of_ne m ρ c main_v31 (by decide)).trans ((W2_of_ne m ρ c main_v31 (by decide)).trans (W1_v31 m ρ c)))))))

/-- The first weight matrix when the first product call reads it. -/
theorem arg5_at2 (c : Dev nD) : W2 m ρ c (Proc.devRef .tc main_arg5) = X5 m c :=
  ((W2_of_ne m ρ c main_arg5 (by decide)).trans (W1_arg5 m ρ c))

/-- The second weight matrix when the second product call reads it. -/
theorem arg7_at5 (c : Dev nD) : W5 m ρ c (Proc.devRef .tc main_arg7) = X7 m c :=
  ((W5_of_ne m ρ c main_arg7 (by decide)).trans ((keep2_arg7 m ρ c).trans ((W3_of_ne m ρ c main_arg7 (by decide)).trans ((W2_of_ne m ρ c main_arg7 (by decide)).trans (W1_arg7 m ρ c)))))

/-- The graph numbers when the pool reads them. -/
theorem arg2_at8 (c : Dev nD) : W8 m ρ c (Proc.devRef .tc main_arg2) = X2 m c :=
  ((W8_of_ne m ρ c main_arg2 (by decide)).trans ((keep4_arg2 m ρ c).trans ((W6_of_ne m ρ c main_arg2 (by decide)).trans ((W5_of_ne m ρ c main_arg2 (by decide)).trans ((keep2_arg2 m ρ c).trans ((W3_of_ne m ρ c main_arg2 (by decide)).trans ((W2_of_ne m ρ c main_arg2 (by decide)).trans (W1_arg2 m ρ c))))))))

/-! ## The calls' results and the host stretches between them -/

/-- The embedding call's result. -/
theorem W2_v32 (c : Dev nD) : W2 m ρ c (Proc.devRef .tc main_v32) = relu (dense (X0 m c : S250000x1.Idx → EReal) (X3 m c : S1x64.Idx → EReal) (rowAt (shapeCast S1x64 (X4 m c) shapeCasts_S64_S1x64))) :=
  (W2_arr m ρ c 3).trans ((final0_3 (V1 m ρ) c).trans (by
    show relu (dense (W1 m ρ c (Proc.devRef .tc main_arg0) : S250000x1.Idx → EReal) (W1 m ρ c (Proc.devRef .tc main_arg3) : S1x64.Idx → EReal) (rowAt (W1 m ρ c (Proc.devRef .tc main_v29) : S1x64.Idx → EReal))) = _
    rw [W1_arg0, W1_arg3, W1_v29]))

/-- The first product call's two results. -/
theorem W3_v33_0 (c : Dev nD) : W3 m ρ c (Proc.devRef .tc main_v33_0) = mm (W2 m ρ c (Proc.devRef .tc main_v32) : S250000x64.Idx → EReal) (X5 m c : S64x64.Idx → EReal) :=
  (W3_arr m ρ c 3).trans ((final1_3 (V2 m ρ) c).trans (by
    show mm (W2 m ρ c (Proc.devRef .tc main_v32) : S250000x64.Idx → EReal) (W2 m ρ c (Proc.devRef .tc main_arg5) : S64x64.Idx → EReal) = _
    rw [arg5_at2]))
theorem W3_v33_1 (c : Dev nD) : W3 m ρ c (Proc.devRef .tc main_v33_1) = scaleRows (mm (W2 m ρ c (Proc.devRef .tc main_v32) : S250000x64.Idx → EReal) (X5 m c : S64x64.Idx → EReal)) (selfCol (X1 m c) shapeCasts_S250000_S250000x1) :=
  (W3_arr m ρ c 4).trans ((final1_4 (V2 m ρ) c).trans (by
    show scaleRows (mm (W2 m ρ c (Proc.devRef .tc main_v32) : S250000x64.Idx → EReal) (W2 m ρ c (Proc.devRef .tc main_arg5) : S64x64.Idx → EReal)) (W2 m ρ c (Proc.devRef .tc main_v28) : S250000x1.Idx → EReal) = _
    rw [arg5_at2, v28_at2]))

/-- The first aggregation. -/
theorem W4_v45 (c : Dev nD) : W4 m ρ c (Proc.devRef .tc main_v45) = agg (X1 m c) (W3 m ρ c (Proc.devRef .tc main_v33_0) : S250000x64.Idx → EReal) (edgeCol (X1 m c) shapeCasts_S4000000_S4000000x1) := by
  show StableHlo.after hostOps2 (W3 m ρ c) (Proc.devRef .tc main_v45) = _
  dsimp only [hostOps2]
  after_results_simp
  rw [v1_at3, v3_at3, v26_at3]
  rfl

/-- The first combine call's result. -/
theorem W5_v46 (c : Dev nD) : W5 m ρ c (Proc.devRef .tc main_v46) = combine (W4 m ρ c (Proc.devRef .tc main_v45) : S250000x64.Idx → EReal) (W3 m ρ c (Proc.devRef .tc main_v33_1) : S250000x64.Idx → EReal) (shapeCast S1x64 (X6 m c) shapeCasts_S64_S1x64) :=
  (W5_arr m ρ c 3).trans ((final2_3 (V4 m ρ) c).trans (by
    show combine (W4 m ρ c (Proc.devRef .tc main_v45) : S250000x64.Idx → EReal) (W4 m ρ c (Proc.devRef .tc main_v33_1) : S250000x64.Idx → EReal) (W4 m ρ c (Proc.devRef .tc main_v30) : S1x64.Idx → EReal) = _
    rw [keep2_v33_1, v30_at4]))

/-- The second product call's two results. -/
theorem W6_v47_0 (c : Dev nD) : W6 m ρ c (Proc.devRef .tc main_v47_0) = mm (W5 m ρ c (Proc.devRef .tc main_v46) : S250000x64.Idx → EReal) (X7 m c : S64x64.Idx → EReal) :=
  (W6_arr m ρ c 3).trans ((final3_3 (V5 m ρ) c).trans (by
    show mm (W5 m ρ c (Proc.devRef .tc main_v46) : S250000x64.Idx → EReal) (W5 m ρ c (Proc.devRef .tc main_arg7) : S64x64.Idx → EReal) = _
    rw [arg7_at5]))
theorem W6_v47_1 (c : Dev nD) : W6 m ρ c (Proc.devRef .tc main_v47_1) = scaleRows (mm (W5 m ρ c (Proc.devRef .tc main_v46) : S250000x64.Idx → EReal) (X7 m c : S64x64.Idx → EReal)) (selfCol (X1 m c) shapeCasts_S250000_S250000x1) :=
  (W6_arr m ρ c 4).trans ((final3_4 (V5 m ρ) c).trans (by
    show scaleRows (mm (W5 m ρ c (Proc.devRef .tc main_v46) : S250000x64.Idx → EReal) (W5 m ρ c (Proc.devRef .tc main_arg7) : S64x64.Idx → EReal)) (W5 m ρ c (Proc.devRef .tc main_v28) : S250000x1.Idx → EReal) = _
    rw [arg7_at5, v28_at5]))

/-- The second aggregation. -/
theorem W7_v59 (c : Dev nD) : W7 m ρ c (Proc.devRef .tc main_v59) = agg (X1 m c) (W6 m ρ c (Proc.devRef .tc main_v47_0) : S250000x64.Idx → EReal) (edgeCol (X1 m c) shapeCasts_S4000000_S4000000x1) := by
  show StableHlo.after hostOps4 (W6 m ρ c) (Proc.devRef .tc main_v59) = _
  dsimp only [hostOps4]
  after_results_simp
  rw [v1_at6, v3_at6, v26_at6]
  rfl

/-- The second combine call's result. -/
theorem W8_v60 (c : Dev nD) : W8 m ρ c (Proc.devRef .tc main_v60) = combine (W7 m ρ c (Proc.devRef .tc main_v59) : S250000x64.Idx → EReal) (W6 m ρ c (Proc.devRef .tc main_v47_1) : S250000x64.Idx → EReal) (shapeCast S1x64 (X8 m c) shapeCasts_S64_S1x64) :=
  (W8_arr m ρ c 3).trans ((final4_3 (V7 m ρ) c).trans (by
    show combine (W7 m ρ c (Proc.devRef .tc main_v59) : S250000x64.Idx → EReal) (W7 m ρ c (Proc.devRef .tc main_v47_1) : S250000x64.Idx → EReal) (W7 m ρ c (Proc.devRef .tc main_v31) : S1x64.Idx → EReal) = _
    rw [keep4_v47_1, v31_at7]))

/-- The pool. -/
theorem W9_v72 (c : Dev nD) : W9 m ρ c (Proc.devRef .tc main_v72) = pool (X2 m c) (W8 m ρ c (Proc.devRef .tc main_v60) : S250000x64.Idx → EReal) := by
  show StableHlo.after hostOps5 (W8 m ρ c) (Proc.devRef .tc main_v72) = _
  dsimp only [hostOps5]
  after_results_simp
  rw [arg2_at8]
  rfl

/-! ## The result -/

/-- The result buffer holds the network function of the argument arrays. -/
theorem result_eq_net (c : Dev nD) : W9 m ρ c (Proc.devRef .tc main_v72)
    = net (X0 m c) (X1 m c) (X2 m c) (X3 m c) (X4 m c) (X5 m c) (X6 m c) (X7 m c) (X8 m c) shapeCasts_S4000000_S4000000x1 shapeCasts_S250000_S250000x1 shapeCasts_S64_S1x64 := by
  rw [W9_v72, W8_v60, W7_v59, W6_v47_0, W6_v47_1, W5_v46, W4_v45, W3_v33_0, W3_v33_1, W2_v32]
  rfl

end Cert.KernelIdeal.Net

end
-- ==== Proof.lean ====
/-
  Two graph convolution layers with mean pooling: the tiled kernel program against the plain reference, on the extended
  reals.

  Both programs compute, from node features x, an edge list, graph numbers and the weights,
    h0 = relu (x · Wf + bf),
    h1 = relu ((agg (h0 · W1) + (h0 · W1) · s) + b1),   h2 = relu ((agg (h1 · W2) + (h1 · W2) · s) + b2),
    out = pool h2,
  where s is each node's self-loop weight (the squared inverse root of its degree), agg gathers the rows of the projected
  features along the edges' sources, scales them by the edge weights and scatter-adds them onto the edges' targets, and
  pool is the per-graph mean. The reference does everything on the host. The kernel program does the gathers, the
  scatter-adds and the pool on the host by the same operations, and the dense parts in five tiled kernel calls over 50
  blocks of 5000 nodes: the embedding, and per layer the product (with its row-scaled copy) and the combine.

  Each dense part is row-local, so a call's result array is the layer function of the arrays it finds (KBlocks0 … 4); the
  kernel program's result, read back through its nine segments, is the network function net of the arguments (KFold),
  and so is the reference's (RefStages): at the extended reals a rounding to a narrower format is the identity, a product
  into a zero accumulator is the host's product, and the kernel's casts of the weight vectors to columns and of the
  biases to rows read the same entries as the reference's broadcasts. The two sides group every sum the same way, so no
  law that needs finite entries is used and the precondition is never opened.

  The three frames: the kernel programs' by the generated frame theorems, the reference's by its generated run. The
  idealization rewrote no operation, so the preservation claim is trivial.
-/
import proofs.«162392_j16415365005924_1_alg».proof.Defs
import proofs.«162392_j16415365005924_1_alg».proof.Proof.Gen.Kernel
import proofs.«162392_j16415365005924_1_alg».proof.Proof.Gen.Kernel.Frame
import proofs.«162392_j16415365005924_1_alg».proof.Proof.Gen.KernelIdeal
import proofs.«162392_j16415365005924_1_alg».proof.Proof.Gen.KernelIdeal.Frame
import proofs.«162392_j16415365005924_1_alg».proof.Proof.Gen.ReferenceIdeal
import proofs.«162392_j16415365005924_1_alg».proof.Proof.Gen.ReferenceIdeal.Read
import proofs.«162392_j16415365005924_1_alg».proof.Proof.Gen.Pre_finite_inputs
import proofs.«162392_j16415365005924_1_alg».proof.Proof.KRun
import proofs.«162392_j16415365005924_1_alg».proof.Proof.KFold
import proofs.«162392_j16415365005924_1_alg».proof.Proof.RefStages
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network function of the (agreeing) arguments in their result buffer. -/
theorem algebraic : Cert.algebraic_KernelIdeal_ReferenceIdeal := by
  intro m ρ m' ρ' _ hagree
  refine ⟨fun c => Cert.ReferenceIdeal.Net.net (Cert.KernelIdeal.Net.X0 m c) (Cert.KernelIdeal.Net.X1 m c) (Cert.KernelIdeal.Net.X2 m c)
      (Cert.KernelIdeal.Net.X3 m c) (Cert.KernelIdeal.Net.X4 m c) (Cert.KernelIdeal.Net.X5 m c) (Cert.KernelIdeal.Net.X6 m c)
      (Cert.KernelIdeal.Net.X7 m c) (Cert.KernelIdeal.Net.X8 m c)
      Cert.KernelIdeal.Gen.shapeCasts_S4000000_S4000000x1 Cert.KernelIdeal.Gen.shapeCasts_S250000_S250000x1 Cert.KernelIdeal.Gen.shapeCasts_S64_S1x64, ?_, ?_⟩
  · exact (θ_run Cert.KernelIdeal.defs _ _).mono
      (fun _ h c => ⟨(h c).1.trans (Cert.KernelIdeal.Net.result_eq_net m ρ c), (h c).2⟩)
      (Cert.KernelIdeal.Net.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Read.val_main_v110_eq, h0, h1, h2, h3, h4, h5, h6, h7, h8]
    exact Cert.ReferenceIdeal.Net.ref_eq_net _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
